-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S4x64 : Shape := ⟨2, ![4, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x4 .f32) (main_arg1 : IVec S2x3200000 32) (main_arg2 : FVec F S4x64 .f32) (main_arg3 : FVec F S64 .f32) (main_arg4 : FVec F S64x32 .f32) (main_arg5 : FVec F S32 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x4 : Shape := ⟨2, ![100000, 4]⟩
abbrev S2x3200000 : Shape := ⟨2, ![2, 3200000]⟩
abbrev S4x64 : Shape := ⟨2, ![4, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x4 : Shape := ⟨2, ![5000, 4]⟩
abbrev S5000x64 : Shape := ⟨2, ![5000, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩

abbrev nBuf : Space → Nat
  | .hbm => 84
  | .vmem => 20
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S4x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x32, .f32⟩
  | .hbm, ⟨75, _⟩ => ⟨S3300000x32, .f32⟩
  | .hbm, ⟨76, _⟩ => ⟨S3300000x32, .f32⟩
  | .hbm, ⟨77, _⟩ => ⟨S_, .f32⟩
  | .hbm, ⟨78, _⟩ => ⟨S100000x32, .f32⟩
  | .hbm, ⟨79, _⟩ => ⟨S3300000x1, .i32⟩
  | .hbm, ⟨80, _⟩ => ⟨S100000x32, .f32⟩
  | .hbm, ⟨81, _⟩ => ⟨S1x32, .f32⟩
  | .hbm, ⟨82, _⟩ => ⟨S1x32, .f32⟩
  | .hbm, ⟨83, _⟩ => ⟨S32, .f32⟩
  | .local _ .vmem, ⟨0, _⟩ => ⟨S5000x4, .f32⟩
  | .local _ .vmem, ⟨1, _⟩ => ⟨S5000x4, .f32⟩
  | .local _ .vmem, ⟨2, _⟩ => ⟨S4x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S5000x32_S5000x32 : S5000x32.ShapeCasts S5000x32
  reduces_S5000x32_S32 : S5000x32.Reduces [0] S32
  shapeCasts_S1x32_S32 : S1x32.ShapeCasts S32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x4_S4x64_S5000x64_1_0_0_1_n_n_wf : DotDims.WF S5000x4 S4x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x32.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x4 : Shape := ⟨2, ![100000, 4]⟩
abbrev S2x3200000 : Shape := ⟨2, ![2, 3200000]⟩
abbrev S4x64 : Shape := ⟨2, ![4, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 134
  | .vmem => 0
  | .smem => 0
  | _ => 0

abbrev hbmTy0_0 (i : Nat) : BufTy := match i % 128 with
  | 0 => ⟨S100000x4, .f32⟩
  | 1 => ⟨S2x3200000, .i32⟩
  | 2 => ⟨S4x64, .f32⟩
  | 3 => ⟨S64, .f32⟩
  | 4 => ⟨S64x32, .f32⟩
  | 5 => ⟨S32, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x64, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1x3200000, .i32⟩
  | 70 => ⟨S3200000, .i32⟩
  | 71 => ⟨S1x3200000, .i32⟩
  | 72 => ⟨S3200000, .i32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x32, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x32, .f32⟩
  | 119 => ⟨S3300000x1, .f32⟩
  | 120 => ⟨S3300000x32, .f32⟩
  | 121 => ⟨S3300000x32, .f32⟩
  | 122 => ⟨S_, .f32⟩
  | 123 => ⟨S100000x32, .f32⟩
  | 124 => ⟨S3300000x1, .i32⟩
  | 125 => ⟨S100000x32, .f32⟩
  | 126 => ⟨S1x32, .f32⟩
  | 127 => ⟨S100000x32, .f32⟩
  | _ => ⟨S100000x4, .f32⟩

abbrev hbmTy0_1 (i : Nat) : BufTy := match i % 128 with
  | 0 => ⟨S100000x32, .f32⟩
  | 1 => ⟨S_, .f32⟩
  | 2 => ⟨S32, .f32⟩
  | 3 => ⟨S_, .f32⟩
  | 4 => ⟨S32, .f32⟩
  | 5 => ⟨S32, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_cst_21 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x64_S100000x64_1_0_0_1_n_n_wf : DotDims.WF S100000x4 S4x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.K.RunCond.lean ====
/-
  The run of the four-region program, conditional on the regions' records.

  @main is ten items: three stretches of host operations, the first matrix product (region 0), a stretch, the bias and
  rectifier (region 1), the second matrix product (region 2), a stretch, the column mean (region 3), and a last reshape.
  Between two items every unscoped buffer of the core is held whole at a valuation: the launch memory, then each host
  stretch's operations applied, then each region's output array replaced by what the region leaves. Given, per region, a
  segment record entered from the thread state before it and left at the one after it, the program terminates without a
  fault, the result buffer ends at the last valuation's contents, and no argument array changes (no host operation
  writes one and no region has one as an output).
-/
import proofs.«153701_j33655363732257_1_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main given one segment record per region: every weakly fair execution from memory `m` with zero counters
    terminates, and every final memory holds the result buffer `main_v61` at the last valuation's contents
    `V10 m outs c main_v61` and each argument as launched. The hypotheses are those of the conditional frame; the one
    difference is that the result buffer is read off the last thread state beside the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c)) :
    θ_run defs (onTc (τ := τ) (main (F := F))) ⟨m, fun _ => 0, ρ⟩ (fun r => ∀ c : Dev nD,
      r.2.mem ((c.tc : Thread nD τ).loc main_v61) = V10 m outs c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, (hpost1 c).trans (hpre2 c), hpost2 c, hpre3 c, hpost3 c, sep_mono .rfl (hE4 c)⟩)
    (hinit := ?_) (QY := fun c s => s.mem ((c.tc : Thread nD τ).loc main_v61) = V10 m outs c main_v61 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v61) (Finset.mem_filter.mpr ⟨StableHlo.devRef_mem_tcRefs main_v61, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c)⟩
    · iexact HSI

end Cert.Kernel.Hand

end
-- ==== Proof.K.Reg0.lean ====
import proofs.«153701_j33655363732257_1_alg».proof.Proof.Gen.Kernel.Launch
import proofs.«153701_j33655363732257_1_alg».proof.Proof.Gen.Kernel.Skeleton
import proofs.«153701_j33655363732257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0: `cc0__matmul_kernel` (the first layer's product), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: its block index is
    constant, so an unfetched point still finds the block of the point before, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S5000x64 := Rect.unit (s := S5000x64) ![0, 0] S5000x64.size inb_S5000x64_S5000x64_0_0

/-! ## What the body leaves in the output window's buffer -/

/-- Window 2's staging buffer after the body, from the input windows' blocks: its one store, of the whole block. -/
def out0_2 (x0 : Vec F S5000x4 .f32) (x1 : Vec F S4x64 .f32) : Vec F S5000x64 .f32 :=
  View.canon [⟨r0_2, k0_pay1 (View.ld x0 r0_0) (View.ld x1 r0_1)⟩]

/-- The store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at read contents `x0`, `x1` and the output's at anything,
    runs to the continuation holding the inputs' as they were and the output's at `out0_2` of the inputs'. The body
    also loads the output's buffer before it stores (the loaded value is not used). -/
theorem sound_kernel0 (c : Dev nD) (E : Set ℕ) (i : grid0.Coords) (arg1 : Memref sig .tc .vmem S5000x4 .f32) (harg1 : arg1.IsWhole) (arg2 : Memref sig .tc .vmem S4x64 .f32) (harg2 : arg2.IsWhole) (arg3 : Memref sig .tc .vmem S5000x64 .f32) (harg3 : arg3.IsWhole)
    (x0 : Vec F S5000x4 .f32) (x1 : Vec F S4x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«153701_j33655363732257_1_alg».proof.Proof.Gen.Kernel.Launch
import proofs.«153701_j33655363732257_1_alg».proof.Proof.Gen.Kernel.Skeleton
import proofs.«153701_j33655363732257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: `cc1__bias_relu_kernel` (bias and rectifier), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: its block index is
    constant, so an unfetched point still finds the block of the point before, which is its own. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S5000x64 := Rect.unit (s := S5000x64) ![0, 0] S5000x64.size inb_S5000x64_S5000x64_0_0

/-! ## What the body leaves in the output window's buffer -/

/-- Window 2's staging buffer after the body, from the input windows' blocks: its one store, of the whole block. -/
def out1_2 (x0 : Vec F S5000x64 .f32) (x1 : Vec F S1x64 .f32) : Vec F S5000x64 .f32 :=
  View.canon [⟨r1_2, k1_pay1 (View.ld x0 r1_0) (View.ld x1 r1_1)⟩]

/-- The store covers the buffer. -/
theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

/-! ## The body's triple -/

set_option maxHeartbeats 1000000 in
/-- The kernel body on whole staging memrefs, the inputs' at read contents `x0`, `x1` and the output's at anything,
    runs to the continuation holding the inputs' as they were and the output's at `out1_2` of the inputs'. The body
    also loads the output's buffer before it stores (the loaded value is not used). -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«153701_j33655363732257_1_alg».proof.Proof.Gen.Kernel.Launch
import proofs.«153701_j33655363732257_1_alg».proof.Proof.Gen.Kernel.Skeleton
import proofs.«153701_j33655363732257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2: `cc2__matmul_kernel` (the second layer's product), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: its block index is
    constant, so an unfetched point still finds the block of the point before, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S64x32 := Rect.unit (s := S64x32) ![0, 0] S64x32.size inb_S64x32_S64x32_0_0
abbrev r2_2 : Rect S5000x32 := Rect.unit (s := S5000x32) ![0, 0] S5000x32.size inb_S5000x32_S5000x32_0_0

/-! ## What the body leaves in the output window's buffer -/

/-- Window 2's staging buffer after the body, from the input windows' blocks: its one store, of the whole block. -/
def out2_2 (x0 : Vec F S5000x64 .f32) (x1 : Vec F S64x32 .f32) : Vec F S5000x32 .f32 :=
  View.canon [⟨r2_2, k2_pay1 (View.ld x0 r2_0) (View.ld x1 r2_1)⟩]

/-- The store covers the buffer. -/
theorem cover2_2 (p0 : Vec F S5000x32 .f32) (y : S5000x32.Idx) :
    ∃ pc ∈ ([⟨r2_2, p0⟩] : List (View.Piece (Elt F) S5000x32 .f32)), y ∈ pc.1.set :=
  View.cover_of_tiled [⟨r2_2, p0⟩] S5000x32.size (by rfl) y

/-! ## The body's triple -/

set_option maxHeartbeats 1000000 in
/-- The kernel body on whole staging memrefs, the inputs' at read contents `x0`, `x1` and the output's at anything,
    runs to the continuation holding the inputs' as they were and the output's at `out2_2` of the inputs'. The body
    also loads the output's buffer before it stores (the loaded value is not used). -/
theorem sound_kernel2 (c : Dev nD) (E : Set ℕ) (i : grid2.Coords) (arg1 : Memref sig .tc .vmem S5000x64 .f32) (harg1 : arg1.IsWhole) (arg2 : Memref sig .tc .vmem S64x32 .f32) (harg2 : arg2.IsWhole) (arg3 : Memref sig .tc .vmem S5000x32 .f32) (harg3 : arg3.IsWhole)
    (x0 : Vec F S5000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Run.lean ====
import proofs.«153701_j33655363732257_1_alg».proof.Proof.Gen.Kernel.Launch
import proofs.«153701_j33655363732257_1_alg».proof.Proof.Gen.Kernel.Skeleton
import proofs.«153701_j33655363732257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The first conditional's condition (the point is the first), from the grid coordinates. -/
abbrev cond3_0 (i : grid3.Coords) : Prop := (Scalar.cmpi .ne (Scalar.extui (Scalar.cmpi .eq (BitVec.ofNat 32 (i 0).val) 0#32)) 0#32) = 1#1
/-- The second conditional's condition (the point is the last). -/
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 19 :=
  (by decide +kernel : ∀ t : Fin grid3.N, cond3_1 (grid3.coords t) ↔ t.val = 19)

abbrev r3_s : Rect S1x32 := Rect.unit (s := S1x32) ![0, 0] S1x32.size inb_S1x32_S1x32_0_0
abbrev r3_0 : Rect S5000x32 := Rect.unit (s := S5000x32) ![0, 0] S5000x32.size inb_S5000x32_S5000x32_0_0

theorem hz2 : (![0, 0] : Fin 2 → Nat) = fun _ => 0 := funext fun a => by fin_cases a <;> rfl

/-- A store through the whole-shape rectangle, last, covers the shape. -/
theorem cover_cons_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self, by show y ∈ (Rect.whole S).set; rw [Rect.set_whole]; exact Finset.mem_univ y⟩

set_option maxHeartbeats 1000000 in
theorem sound_kernel3_A (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (hc0 : cond3_0 i) (hc1 : ¬cond3_1 i)
    (x0 : Vec F S5000x32 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 (k3_pay1 (F := F)) x0)) -∗ K ⟨⟩))
      ⊢ wp frame (wpE (defs₀ (F := F)) Variants.none c none) E (cc3__reduce_kernel i arg1 harg1 arg2 harg2 arg3 harg3 arg4 harg4) K := by
  simp only [cc3__reduce_kernel_eq_skeleton]; unfold cc3__reduce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover_cons_unit_zero hz2 _ _ _), View.canon_cons_unit_zero (S := S1x32) hz2,
    View.readCov_unit_zero (S := S1x32) _ hz2]
  simp only [View.readAt_eq_ld, View.ld_unit_zero (S := S1x32) hz2, View.ld_unit_zero (S := S5000x32) hz2]

set_option maxHeartbeats 1000000 in
theorem sound_kernel3_B (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (hc0 : ¬cond3_0 i) (hc1 : ¬cond3_1 i)
    (x0 : Vec F S5000x32 .f32) (x1 : Vec F S1x32 .f32) (x2 : Vec F S1x32 .f32) (xs : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 xs x0)) -∗ K ⟨⟩))
      ⊢ wp frame (wpE (defs₀ (F := F)) Variants.none c none) E (cc3__reduce_kernel i arg1 harg1 arg2 harg2 arg3 harg3 arg4 harg4) K := by
  simp only [cc3__reduce_kernel_eq_skeleton]; unfold cc3__reduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_cons_unit_zero hz2 _ _ _), View.canon_cons_unit_zero (S := S1x32) hz2]
  simp only [View.readAt_eq_ld, View.ld_unit_zero (S := S1x32) hz2, View.ld_unit_zero (S := S5000x32) hz2]

set_option maxHeartbeats 1000000 in
theorem sound_kernel3_C (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (hc0 : ¬cond3_0 i) (hc1 : cond3_1 i)
    (x0 : Vec F S5000x32 .f32) (x1 : Vec F S1x32 .f32) (xs : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay3 (k3_pay2 xs x0) x1)
            ∗ owns (c : Thread nD τ) arg4 fullShare (k3_pay2 xs x0)) -∗ K ⟨⟩))
      ⊢ wp frame (wpE (defs₀ (F := F)) Variants.none c none) E (cc3__reduce_kernel i arg1 harg1 arg2 harg2 arg3 harg3 arg4 harg4) K := by
  simp only [cc3__reduce_kernel_eq_skeleton]; unfold cc3__reduce_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_cons_unit_zero hz2 _ _ _), View.canon_cons_unit_zero (S := S1x32) hz2,
      View.readCov_unit_zero (S := S1x32) _ hz2]
    simp only [View.readAt_eq_ld, View.ld_unit_zero (S := S1x32) hz2, View.ld_unit_zero (S := S5000x32) hz2]
  iexists _; isplitr
  swap; · iexact HS
  ipureintro
  sl_unfold_words
  rw [View.read_writes_eq_canon _ _ _ (cover_cons_unit_zero hz2 _ _ _), View.canon_cons_unit_zero (S := S1x32) hz2]
  simp only [View.readAt_eq_ld, View.ld_unit_zero (S := S1x32) hz2, View.ld_unit_zero (S := S5000x32) hz2]

end Cert.Kernel.Hand
end
-- ==== Proof.K.Reg3.lean ====
import proofs.«153701_j33655363732257_1_alg».proof.Proof.Gen.Kernel.Launch
import proofs.«153701_j33655363732257_1_alg».proof.Proof.Gen.Kernel.Skeleton
import proofs.«153701_j33655363732257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«153701_j33655363732257_1_alg».proof.Proof.K.Reg3Run
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (fetched at the first point only, its block index constant) likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Off the last point the output window is idle (the body stores nothing into it) -/
theorem idleAt3_2 : ∀ t : Fin cfg3.N, ¬cond3_1 (grid3.coords t) → cfg3.idle 2 (grid3.coords t) = true := by decide +kernel
/-- and is not written back; -/
theorem noFlush3_2 : ∀ t : Fin cfg3.N, ¬cond3_1 (grid3.coords t) → (cfg3.win 2).flush t = false := by decide +kernel
/-- at the last point it is live. -/
theorem liveAt3_2 : ∀ t : Fin cfg3.N, cond3_1 (grid3.coords t) → cfg3.idle 2 (grid3.coords t) = false := by decide +kernel

/-! ## The accumulator carried in the scratch buffer -/

/-- The scratch operand: a whole scoped buffer of the kernel's own, passed beside the windows. -/
abbrev scM3 : Memref sig .tc .vmem S1x32 .f32 := Memref.whole cc3_scratch0

/-- The scratch after the first `n` points: the zero row, then at each point the column sums of that point's block
    of window 0 added to it (the value at 0 is the reset's, which the first point stores before reading). -/
def acc3 (c : Dev nD) : Nat → Vec F S1x32 .f32
  | 0 => k3_pay1
  | n + 1 => if h : n < cfg3.N then k3_pay2 (acc3 c n) (iblk3 V c 0 ⟨n, h⟩) else acc3 c n

theorem acc3_zero (c : Dev nD) : acc3 V c 0 = k3_pay1 := rfl

theorem acc3_succ (c : Dev nD) (t : Fin cfg3.N) : acc3 V c (t.val + 1) = k3_pay2 (acc3 V c t.val) (iblk3 V c 0 t) := by
  rw [acc3.eq_2]; exact dif_pos t.isLt

/-! ## The invariant -/

/-- The scoped rest of the region is the scratch buffer at some contents beside every other scoped buffer that is
    no staging buffer of the region. -/
theorem scopedRest3_split (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ Pipeline.scopedRestBut (Ix := Unit) (Name := ℕ) (U := UR sig nD τ) (Lvl := ℕ) (Val := Elt F) spec3 c [cc3_scratch0]) := by
  rw [Pipeline.scopedRest_split_of_list spec3 c [cc3_scratch0] (by decide) (by decide)]
  simp only [scM3, owns_whole]; try rfl

/-- The region invariant before position `n`: before the first point what the launch hands the region (the generator
    register and the scoped rest, the scratch at anything); afterwards the scratch at the accumulator. -/
def Phi3 (c : Dev nD) : ℕ → sProp 𝕄
  | 0 => iprop((∃ r, prngReg c r) ∗ Pipeline.scopedRest (Ix := Unit) (Name := ℕ) (U := UR sig nD τ) (Lvl := ℕ) spec3 c)
  | n + 1 => iprop((∃ r, prngReg c r) ∗ owns (c : Thread nD τ) scM3 fullShare (acc3 V c (n + 1))
      ∗ Pipeline.scopedRestBut (Ix := Unit) (Name := ℕ) (U := UR sig nD τ) (Lvl := ℕ) spec3 c [cc3_scratch0])

theorem Phi3_zero (c : Dev nD) (n : ℕ) (hz : n = 0) :
    Phi3 V c n = iprop((∃ r, prngReg c r) ∗ Pipeline.scopedRest (Ix := Unit) (Name := ℕ) (U := UR sig nD τ) (Lvl := ℕ) spec3 c) := by
  subst hz; rfl

theorem Phi3_succ (c : Dev nD) (n : ℕ) :
    Phi3 V c (n + 1) = iprop((∃ r, prngReg c r) ∗ owns (c : Thread nD τ) scM3 fullShare (acc3 V c (n + 1))
      ∗ Pipeline.scopedRestBut (Ix := Unit) (Name := ℕ) (U := UR sig nD τ) (Lvl := ℕ) spec3 c [cc3_scratch0]) := rfl

theorem Phi3_pos (c : Dev nD) (n : ℕ) (hz : n ≠ 0) :
    Phi3 V c n = iprop((∃ r, prngReg c r) ∗ owns (c : Thread nD τ) scM3 fullShare (acc3 V c n)
      ∗ Pipeline.scopedRestBut (Ix := Unit) (Name := ℕ) (U := UR sig nD τ) (Lvl := ℕ) spec3 c [cc3_scratch0]) := by
  cases n with
  | zero => exact absurd rfl hz
  | succ n => rfl

/-! ## The pipeline's proof data -/

/-- The proof data of the pipeline on core `c`: the arrays as the region finds them; after the body each input's buffer
    at its block, the output's at the mean row computed from the accumulator (read at the last point only); the
    invariant tracking the scratch; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c (t.val + 1)) (iblk3 V c 1 t)
  Φ t := Phi3 V c t.val
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) : (dat3 V c).Φ t.castSucc = Phi3 V c t.val := by
  dsimp only [dat3]; try simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay3 (acc3 V c (t.val + 1)) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the point is the first, a middle one or the last
    (`by_cases` on the conditions' closed forms) and that case's run applies; the invariant hands the body the scratch
    at the accumulator so far (at anything at the first point) and takes it back at the accumulator after the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, Phi3_succ, Phi3_castSucc, acc3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have h1 : ¬t.val = 19 := by omega
    rw [Dat.leavesExact_idle (dat3 V c) 2 t (idleAt3_2 t (fun h => h1 ((hcond3_1 t).mp h))) (noFlush3_2 t (fun h => h1 ((hcond3_1 t).mp h)))]
    rw [Phi3_zero V c _ h0, scopedRest3_split, show acc3 V c t.val = k3_pay1 from by rw [h0]; rfl]
    iintro ⟨⟨Hg, HS, HR⟩, Ho, ⟨%d0, H0⟩, ⟨%d1, H1⟩, ⟨%d2, H2⟩⟩
    iapply (sound_kernel3_A c Set.univ (grid3.coords t) _ _ _ _ _ _ _ _ ((hcond3_0 t).mpr h0) (fun h => h1 ((hcond3_1 t).mp h)) (iblk3 V c 0 t) (iblk3 V c 1 t) _ _)
    isplitl [H0]; · iexact H0
    isplitl [H1]; · iexact H1
    isplitl [H2]; · iexact H2
    isplitl [HS]; · iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexists _; iexact H2
  · by_cases h1 : t.val = 19
    · rw [show (dat3 V c).leavesExact 2 t = owns (c : Thread nD τ) (st3_2 t) fullShare ((dat3 V c).after 2 t) from by
        unfold Dat.leavesExact; rw [liveAt3_2 t ((hcond3_1 t).mpr h1)], after3_2, acc3_succ]
      rw [Phi3_pos V c _ h0]
      iintro ⟨⟨Hg, HS, HR⟩, Ho, ⟨%d0, H0⟩, ⟨%d1, H1⟩, ⟨%d2, H2⟩⟩
      iapply (sound_kernel3_C c Set.univ (grid3.coords t) _ _ _ _ _ _ _ _ (fun h => h0 ((hcond3_0 t).mp h)) ((hcond3_1 t).mpr h1) (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · rw [Dat.leavesExact_idle (dat3 V c) 2 t (idleAt3_2 t (fun h => h1 ((hcond3_1 t).mp h))) (noFlush3_2 t (fun h => h1 ((hcond3_1 t).mp h)))]
      rw [Phi3_pos V c _ h0]
      iintro ⟨⟨Hg, HS, HR⟩, Ho, ⟨%d0, H0⟩, ⟨%d1, H1⟩, ⟨%d2, H2⟩⟩
      iapply (sound_kernel3_B c Set.univ (grid3.coords t) _ _ _ _ _ _ _ _ (fun h => h0 ((hcond3_0 t).mp h)) (fun h => h1 ((hcond3_1 t).mp h)) (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) :
    iprop((∃ r, prngReg c r) ∗ Pipeline.scopedRest (Ix := Unit) (Name := ℕ) (U := UR sig nD τ) (Lvl := ℕ) spec3 c) ⊢ ((dat3 V c).Φ 0 : sProp 𝕄) := by
  rw [show (dat3 V c).Φ 0 = Phi3 V c 0 from rfl, Phi3_zero V c 0 rfl]
  try exact Idealize.SL.BI.Entails.refl _

/-- After any point the invariant gives the scoped rest back: the scratch's named contents are forgotten. -/
theorem hout3 (c : Dev nD) :
    ((dat3 V c).Φ (Fin.last cfg3.N) : sProp 𝕄) ⊢ iprop((∃ r, prngReg c r) ∗ Pipeline.scopedRest (Ix := Unit) (Name := ℕ) (U := UR sig nD τ) (Lvl := ℕ) spec3 c) := by
  rw [show (dat3 V c).Φ (Fin.last cfg3.N) = Phi3 V c (Fin.last cfg3.N).val from rfl,
    Phi3_pos V c _ (by rw [Fin.val_last]; have : cfg3.N = 20 := N_3; omega), scopedRest3_split]
  iintro ⟨Hg, HS, HR⟩
  isplitl [Hg]; · iexact Hg
  isplitl [HS]; · iexists _; iexact HS
  iexact HR

end Cert.Kernel.Hand
end
-- ==== Proof.K.Run.lean ====
/-
  The run of the four-region program.

  Each region's pipeline is given its proof data at the contents the region is entered at; its record as a segment of
  @main splits the region's arrays out of the core's unscoped buffers, runs the pipeline, and puts the arrays back with
  the output array replaced by the fold of its blocks' write-backs. Chained with the host stretches, the records give:
  @main terminates without a fault, the result buffer ends at the last valuation's contents, and the argument arrays
  end as launched. Regions 0, 1 and 2 keep nothing between grid points; region 3 carries its accumulator in a scratch
  buffer, which its invariant tracks from the first point to the last.
-/
import proofs.«153701_j33655363732257_1_alg».proof.Proof.K.RunCond
import proofs.«153701_j33655363732257_1_alg».proof.Proof.K.Reg0
import proofs.«153701_j33655363732257_1_alg».proof.Proof.K.Reg1
import proofs.«153701_j33655363732257_1_alg».proof.Proof.K.Reg2
import proofs.«153701_j33655363732257_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves in its output array, one region after the other

Region 0 is entered at the launch memory with the first three host stretches applied; what it leaves in its output array
is the fold of its blocks' write-backs. Each later region is entered at the contents the items before it leave, so its
output is defined from the outputs before it. -/

/-- The array of the first matrix product after region 0. -/
def o4 (c : Dev nD) : Buf (Elt F) ((c : Thread nD τ).loc main_v31) :=
  (dat0 (fun c b => Gen.V3 m c b) c).arrAt 2 cfg0.N
/-- The regions' outputs known after region 0. -/
def outsA : Gen.Outs (F := F) := fun _ r c => Function.update (Gen.V3 m c) main_v31 (o4 m c) r
/-- The array of the rectified first layer after region 1. -/
def o6 (c : Dev nD) : Buf (Elt F) ((c : Thread nD τ).loc main_v45) :=
  (dat1 (fun c b => Gen.V5 m (outsA m) c b) c).arrAt 2 cfg1.N
/-- The regions' outputs known after region 1. -/
def outsB : Gen.Outs (F := F) := fun _ r c =>
  Function.update (Function.update (Gen.V3 m c) main_v31 (o4 m c)) main_v45 (o6 m c) r
/-- The array of the second matrix product after region 2. -/
def o7 (c : Dev nD) : Buf (Elt F) ((c : Thread nD τ).loc main_v46) :=
  (dat2 (fun c b => Gen.V6 m (outsB m) c b) c).arrAt 2 cfg2.N
/-- The regions' outputs known after region 2. -/
def outsC : Gen.Outs (F := F) := fun _ r c =>
  Function.update (Function.update (Function.update (Gen.V3 m c) main_v31 (o4 m c)) main_v45 (o6 m c)) main_v46 (o7 m c) r
/-- The row of column means plus bias after region 3. -/
def o9 (c : Dev nD) : Buf (Elt F) ((c : Thread nD τ).loc main_v60) :=
  (dat3 (fun c b => Gen.V8 m (outsC m) c b) c).arrAt 2 cfg3.N
/-- All four regions' outputs. -/
def outs : Gen.Outs (F := F) := fun _ r c =>
  Function.update (Function.update (Function.update (Function.update (Gen.V3 m c) main_v31 (o4 m c)) main_v45 (o6 m c)) main_v46 (o7 m c)) main_v60 (o9 m c) r

theorem ne_31_45 : (Proc.devRef .tc main_v31 : DevRef τ sig) ≠ Proc.devRef .tc main_v45 := StableHlo.devRef_ne_of_ne (by decide)
theorem ne_31_46 : (Proc.devRef .tc main_v31 : DevRef τ sig) ≠ Proc.devRef .tc main_v46 := StableHlo.devRef_ne_of_ne (by decide)
theorem ne_31_60 : (Proc.devRef .tc main_v31 : DevRef τ sig) ≠ Proc.devRef .tc main_v60 := StableHlo.devRef_ne_of_ne (by decide)
theorem ne_45_46 : (Proc.devRef .tc main_v45 : DevRef τ sig) ≠ Proc.devRef .tc main_v46 := StableHlo.devRef_ne_of_ne (by decide)
theorem ne_45_60 : (Proc.devRef .tc main_v45 : DevRef τ sig) ≠ Proc.devRef .tc main_v60 := StableHlo.devRef_ne_of_ne (by decide)
theorem ne_46_60 : (Proc.devRef .tc main_v46 : DevRef τ sig) ≠ Proc.devRef .tc main_v60 := StableHlo.devRef_ne_of_ne (by decide)

theorem outsA_31 (n : ℕ) (c : Dev nD) : outsA m n main_v31 c = o4 m c := by
  unfold outsA; exact Function.update_self ..
theorem outsB_31 (n : ℕ) (c : Dev nD) : outsB m n main_v31 c = o4 m c := by
  unfold outsB; rw [Function.update_of_ne ne_31_45]; exact Function.update_self ..
theorem outsB_45 (n : ℕ) (c : Dev nD) : outsB m n main_v45 c = o6 m c := by
  unfold outsB; exact Function.update_self ..
theorem outsC_31 (n : ℕ) (c : Dev nD) : outsC m n main_v31 c = o4 m c := by
  unfold outsC; rw [Function.update_of_ne ne_31_46, Function.update_of_ne ne_31_45]; exact Function.update_self ..
theorem outsC_45 (n : ℕ) (c : Dev nD) : outsC m n main_v45 c = o6 m c := by
  unfold outsC; rw [Function.update_of_ne ne_45_46]; exact Function.update_self ..
theorem outsC_46 (n : ℕ) (c : Dev nD) : outsC m n main_v46 c = o7 m c := by
  unfold outsC; exact Function.update_self ..
theorem outs_31 (n : ℕ) (c : Dev nD) : outs m n main_v31 c = o4 m c := by
  unfold outs; rw [Function.update_of_ne ne_31_60, Function.update_of_ne ne_31_46, Function.update_of_ne ne_31_45]; exact Function.update_self ..
theorem outs_45 (n : ℕ) (c : Dev nD) : outs m n main_v45 c = o6 m c := by
  unfold outs; rw [Function.update_of_ne ne_45_60, Function.update_of_ne ne_45_46]; exact Function.update_self ..
theorem outs_46 (n : ℕ) (c : Dev nD) : outs m n main_v46 c = o7 m c := by
  unfold outs; rw [Function.update_of_ne ne_46_60]; exact Function.update_self ..
theorem outs_60 (n : ℕ) (c : Dev nD) : outs m n main_v60 c = o9 m c := by
  unfold outs; exact Function.update_self ..

/-! The valuations between items read only the outputs of the regions before them. -/

theorem V4_congr (o o' : Gen.Outs (F := F)) (c : Dev nD) (h4 : o 4 main_v31 c = o' 4 main_v31 c) : Gen.V4 m o c = Gen.V4 m o' c := by
  show Function.update (Gen.V3 m c) _ (o 4 main_v31 c) = Function.update (Gen.V3 m c) _ (o' 4 main_v31 c)
  rw [h4]
theorem V5_congr (o o' : Gen.Outs (F := F)) (c : Dev nD) (h4 : o 4 main_v31 c = o' 4 main_v31 c) : Gen.V5 m o c = Gen.V5 m o' c := by
  show StableHlo.after hostOps1 (Gen.V4 m o c) = StableHlo.after hostOps1 (Gen.V4 m o' c)
  rw [V4_congr m o o' c h4]
theorem V6_congr (o o' : Gen.Outs (F := F)) (c : Dev nD) (h4 : o 4 main_v31 c = o' 4 main_v31 c) (h6 : o 6 main_v45 c = o' 6 main_v45 c) :
    Gen.V6 m o c = Gen.V6 m o' c := by
  show Function.update (Gen.V5 m o c) _ (o 6 main_v45 c) = Function.update (Gen.V5 m o' c) _ (o' 6 main_v45 c)
  rw [V5_congr m o o' c h4, h6]
theorem V7_congr (o o' : Gen.Outs (F := F)) (c : Dev nD) (h4 : o 4 main_v31 c = o' 4 main_v31 c) (h6 : o 6 main_v45 c = o' 6 main_v45 c)
    (h7 : o 7 main_v46 c = o' 7 main_v46 c) : Gen.V7 m o c = Gen.V7 m o' c := by
  show Function.update (Gen.V6 m o c) _ (o 7 main_v46 c) = Function.update (Gen.V6 m o' c) _ (o' 7 main_v46 c)
  rw [V6_congr m o o' c h4 h6, h7]
theorem V8_congr (o o' : Gen.Outs (F := F)) (c : Dev nD) (h4 : o 4 main_v31 c = o' 4 main_v31 c) (h6 : o 6 main_v45 c = o' 6 main_v45 c)
    (h7 : o 7 main_v46 c = o' 7 main_v46 c) : Gen.V8 m o c = Gen.V8 m o' c := by
  show StableHlo.after hostOps3 (Gen.V7 m o c) = StableHlo.after hostOps3 (Gen.V7 m o' c)
  rw [V7_congr m o o' c h4 h6 h7]

theorem V5_outs (c : Dev nD) : Gen.V5 m (outs m) c = Gen.V5 m (outsA m) c :=
  V5_congr m _ _ c ((outs_31 m 4 c).trans (outsA_31 m 4 c).symm)
theorem V6_outs (c : Dev nD) : Gen.V6 m (outs m) c = Gen.V6 m (outsB m) c :=
  V6_congr m _ _ c ((outs_31 m 4 c).trans (outsB_31 m 4 c).symm) ((outs_45 m 6 c).trans (outsB_45 m 6 c).symm)
theorem V5_outsB (c : Dev nD) : Gen.V5 m (outsB m) c = Gen.V5 m (outsA m) c :=
  V5_congr m _ _ c ((outsB_31 m 4 c).trans (outsA_31 m 4 c).symm)
theorem V8_outs (c : Dev nD) : Gen.V8 m (outs m) c = Gen.V8 m (outsC m) c :=
  V8_congr m _ _ c ((outs_31 m 4 c).trans (outsC_31 m 4 c).symm) ((outs_45 m 6 c).trans (outsC_45 m 6 c).symm)
    ((outs_46 m 7 c).trans (outsC_46 m 7 c).symm)
theorem V6_outsC (c : Dev nD) : Gen.V6 m (outsC m) c = Gen.V6 m (outsB m) c :=
  V6_congr m _ _ c ((outsC_31 m 4 c).trans (outsB_31 m 4 c).symm) ((outsC_45 m 6 c).trans (outsB_45 m 6 c).symm)

/-! ## The thread state beside the buffers, and the proof data of the four pipelines -/

/-- No core owes another anything: no level is assigned. -/
abbrev Lz : GSem nD τ sig → Finset Unit := fun _ => ∅
abbrev lvz : GSem nD τ sig → Unit → ℕ := fun _ _ => 0
/-- What rides beside the buffers through every item: the core's generator register at some state and its debts, none. -/
abbrev Rst (c : Dev nD) : sProp 𝕄 := iprop((∃ r, prngReg c r) ∗ ∃ W, owes (c : Thread nD τ) (0 : CellTallies nD τ sig Unit) W)

/-- Every pipeline's proof data, each at its region's entry contents. -/
def pdats : (p : Fin 4) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V5 m (outsA m) c b) c
  | ⟨2, _⟩ => fun c => dat2 (fun c b => Gen.V6 m (outsB m) c b) c
  | ⟨3, _⟩ => fun c => dat3 (fun c b => Gen.V8 m (outsC m) c b) c

/-- At region 0's exit its output array holds what the pipeline leaves and its input arrays what they held at entry, -/
theorem hF0 (c : Dev nD) (w : Fin cfg0.W) : (pdats m 0 c).arrAt w cfg0.N = Gen.V4 m (outs m) c (Pipeline.arrRef spec0 w) := by
  match w with
  | ⟨0, _⟩ =>
    refine ((pdats m 0 c).arrAt_in 0 rfl _).trans ?_
    exact (Gen.V4_of m (outs m) c main_arg0 (by decide)).symm
  | ⟨1, _⟩ =>
    refine ((pdats m 0 c).arrAt_in 1 rfl _).trans ?_
    exact (Gen.V4_of m (outs m) c main_arg2 (by decide)).symm
  | ⟨2, _⟩ =>
    have h : Gen.V4 m (outs m) c (Proc.devRef .tc main_v31) = outs m 4 main_v31 c := Function.update_self ..
    exact (h.trans (outs_31 m 4 c)).symm
/-- and every other buffer what it held at entry. -/
theorem hrest0 (c : Dev nD) : ∀ b, b ∉ Finset.univ.image (Pipeline.arrRef spec0) → Gen.V4 m (outs m) c b = Gen.V3 m c b :=
  fun b hb => Gen.V4_of m (outs m) c b fun hmem => hb (Finset.mem_image.mpr ⟨2, Finset.mem_univ _, (List.mem_singleton.mp hmem).symm⟩)

set_option backward.isDefEq.respectTransparency.types false in
/-- Region 0 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg0 : RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => Gen.V3 m c b) c).loose
  hwaits := Pipeline.hwaits_of_owed_zero _ _ _ _ Lz lvz 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! Region 1 is entered at the contents after the fourth host stretch, region 2 at region 1's exit, region 3 after the
    fifth stretch; each is stated at the outputs known when it is entered, which agree with the final ones there. -/

theorem Vof1 (c : Dev nD) (r : Ref sig .tc) (h : r ∉ ([main_v45] : List (Ref sig .tc))) :
    Gen.V6 m (outs m) c r = Gen.V5 m (outsA m) c r :=
  (Gen.V6_of m (outs m) c r h).trans (congrFun (V5_outs m c) _)
theorem Vof2 (c : Dev nD) (r : Ref sig .tc) (h : r ∉ ([main_v46] : List (Ref sig .tc))) :
    Gen.V7 m (outs m) c r = Gen.V6 m (outsB m) c r :=
  (Gen.V7_of m (outs m) c r h).trans (congrFun (V6_outs m c) _)
theorem Vof3 (c : Dev nD) (r : Ref sig .tc) (h : r ∉ ([main_v60] : List (Ref sig .tc))) :
    Gen.V9 m (outs m) c r = Gen.V8 m (outsC m) c r :=
  (Gen.V9_of m (outs m) c r h).trans (congrFun (V8_outs m c) _)

/-- At region 1's exit its output array holds what the pipeline leaves and its input arrays what they held at entry, -/
theorem hF1 (c : Dev nD) (w : Fin cfg1.W) : (pdats m 1 c).arrAt w cfg1.N = Gen.V6 m (outs m) c (Pipeline.arrRef spec1 w) := by
  match w with
  | ⟨0, _⟩ =>
    refine ((pdats m 1 c).arrAt_in 0 rfl _).trans ?_
    exact (Vof1 m c main_v43 (by decide)).symm
  | ⟨1, _⟩ =>
    refine ((pdats m 1 c).arrAt_in 1 rfl _).trans ?_
    exact (Vof1 m c main_v44 (by decide)).symm
  | ⟨2, _⟩ =>
    have h : Gen.V6 m (outs m) c (Proc.devRef .tc main_v45) = outs m 6 main_v45 c := Function.update_self ..
    exact (h.trans (outs_45 m 6 c)).symm
/-- and every other buffer what it held at entry. -/
theorem hrest1 (c : Dev nD) : ∀ b, b ∉ Finset.univ.image (Pipeline.arrRef spec1) → Gen.V6 m (outs m) c b = Gen.V5 m (outsA m) c b :=
  fun b hb => Vof1 m c b fun hmem => hb (Finset.mem_image.mpr ⟨2, Finset.mem_univ _, (List.mem_singleton.mp hmem).symm⟩)

set_option backward.isDefEq.respectTransparency.types false in
/-- Region 1 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg1 : RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => Gen.V5 m (outsA m) c b) c).loose
  hwaits := Pipeline.hwaits_of_owed_zero _ _ _ _ Lz lvz 1 fun _ _ => rfl
  pre c := iprop(StableHlo.held (c : Thread nD τ) (Pipeline.ucRefs τ sig) (Gen.V5 m (outsA m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => Gen.V5 m (outsA m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V5 m (outsA m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V5 m (outsA m) c b) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit its output array holds what the pipeline leaves and its input arrays what they held at entry, -/
theorem hF2 (c : Dev nD) (w : Fin cfg2.W) : (pdats m 2 c).arrAt w cfg2.N = Gen.V7 m (outs m) c (Pipeline.arrRef spec2 w) := by
  match w with
  | ⟨0, _⟩ =>
    refine ((pdats m 2 c).arrAt_in 0 rfl _).trans ?_
    exact (Vof2 m c main_v45 (by decide)).symm
  | ⟨1, _⟩ =>
    refine ((pdats m 2 c).arrAt_in 1 rfl _).trans ?_
    exact (Vof2 m c main_arg4 (by decide)).symm
  | ⟨2, _⟩ =>
    have h : Gen.V7 m (outs m) c (Proc.devRef .tc main_v46) = outs m 7 main_v46 c := Function.update_self ..
    exact (h.trans (outs_46 m 7 c)).symm
/-- and every other buffer what it held at entry. -/
theorem hrest2 (c : Dev nD) : ∀ b, b ∉ Finset.univ.image (Pipeline.arrRef spec2) → Gen.V7 m (outs m) c b = Gen.V6 m (outsB m) c b :=
  fun b hb => Vof2 m c b fun hmem => hb (Finset.mem_image.mpr ⟨2, Finset.mem_univ _, (List.mem_singleton.mp hmem).symm⟩)

set_option backward.isDefEq.respectTransparency.types false in
/-- Region 2 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg2 : RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (fun c b => Gen.V6 m (outsB m) c b) c).loose
  hwaits := Pipeline.hwaits_of_owed_zero _ _ _ _ Lz lvz 2 fun _ _ => rfl
  pre c := iprop(StableHlo.held (c : Thread nD τ) (Pipeline.ucRefs τ sig) (Gen.V6 m (outsB m) c) ∗ Rst c)
  post c := iprop(StableHlo.held (c : Thread nD τ) (Pipeline.ucRefs τ sig) (Gen.V7 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => Gen.V6 m (outsB m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => Gen.V6 m (outsB m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V6 m (outsB m) c b) (fun b => Gen.V7 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit its output array holds what the pipeline leaves and its input arrays what they held at entry, -/
theorem hF3 (c : Dev nD) (w : Fin cfg3.W) : (pdats m 3 c).arrAt w cfg3.N = Gen.V9 m (outs m) c (Pipeline.arrRef spec3 w) := by
  match w with
  | ⟨0, _⟩ =>
    refine ((pdats m 3 c).arrAt_in 0 rfl _).trans ?_
    exact (Vof3 m c main_v58 (by decide)).symm
  | ⟨1, _⟩ =>
    refine ((pdats m 3 c).arrAt_in 1 rfl _).trans ?_
    exact (Vof3 m c main_v59 (by decide)).symm
  | ⟨2, _⟩ =>
    have h : Gen.V9 m (outs m) c (Proc.devRef .tc main_v60) = outs m 9 main_v60 c := Function.update_self ..
    exact (h.trans (outs_60 m 9 c)).symm
/-- and every other buffer what it held at entry. -/
theorem hrest3 (c : Dev nD) : ∀ b, b ∉ Finset.univ.image (Pipeline.arrRef spec3) → Gen.V9 m (outs m) c b = Gen.V8 m (outsC m) c b :=
  fun b hb => Vof3 m c b fun hmem => hb (Finset.mem_image.mpr ⟨2, Finset.mem_univ _, (List.mem_singleton.mp hmem).symm⟩)

set_option backward.isDefEq.respectTransparency.types false in
/-- Region 3 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg3 : RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (fun c b => Gen.V8 m (outsC m) c b) c).loose
  hwaits := Pipeline.hwaits_of_owed_zero _ _ _ _ Lz lvz 3 fun _ _ => rfl
  pre c := iprop(StableHlo.held (c : Thread nD τ) (Pipeline.ucRefs τ sig) (Gen.V8 m (outsC m) c) ∗ Rst c)
  post c := iprop(StableHlo.held (c : Thread nD τ) (Pipeline.ucRefs τ sig) (Gen.V9 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (fun b => Gen.V8 m (outsC m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => Gen.V8 m (outsC m) c b) fun w => A_eq3 (fun c b => Gen.V8 m (outsC m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (fun c b => Gen.V8 m (outsC m) c b) c).Φ 0 from rfl]
    iintro ⟨Hp, -, Hr⟩
    iapply (hin3 (fun c b => Gen.V8 m (outsC m) c b) c)
    isplitl [Hp]; · iexact Hp
    iexact Hr
  hout c := by
    rw [Pipeline.ownSems0_none, show (pdats m 3 c).Φ (Fin.last _) = (dat3 (fun c b => Gen.V8 m (outsC m) c b) c).Φ (Fin.last cfg3.N) from rfl]
    iintro H
    ihave H' := (hout3 (fun c b => Gen.V8 m (outsC m) c b) c) $$ H
    icases H' with ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V8 m (outsC m) c b) (fun b => Gen.V9 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates without a fault; the result
    buffer ends at the last valuation's contents — the final reshape of what region 3 leaves — and every argument array
    ends as launched. At any float instance. -/
theorem run : θ_run defs (onTc (τ := τ) (main (F := F))) ⟨m, fun _ => 0, ρ⟩ (fun r => ∀ c : Dev nD,
      r.2.mem ((c.tc : Thread nD τ).loc main_v61) = Gen.V10 m (outs m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond (F := F) m (Ix := Unit) (U := UR sig nD τ) (Lvl := ℕ) (EP := emb₁) (ι := ()) (𝒱₀ := Variants.none) (L := Lz) (lv := lvz)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE4 := fun c => by iintro ⟨-, H⟩; iexact H)
    (R0 := reg0 m) (hpre0 := fun c => .rfl) (hpost0 := fun c => .rfl)
    (R1 := reg1 m) (hpre1 := fun c => by rw [V5_outs m c]; exact .rfl) (hpost1 := fun c => .rfl)
    (R2 := reg2 m) (hpre2 := fun c => by rw [V6_outs m c]; exact .rfl) (hpost2 := fun c => .rfl)
    (R3 := reg3 m) (hpre3 := fun c => by rw [V8_outs m c]; exact .rfl) (hpost3 := fun c => .rfl)

end Cert.Kernel.Hand

end
-- ==== Proof.KI.RunCond.lean ====
/-
  The run of the four-region program, conditional on the regions' records.

  @main is ten items: three stretches of host operations, the first matrix product (region 0), a stretch, the bias and
  rectifier (region 1), the second matrix product (region 2), a stretch, the column mean (region 3), and a last reshape.
  Between two items every unscoped buffer of the core is held whole at a valuation: the launch memory, then each host
  stretch's operations applied, then each region's output array replaced by what the region leaves. Given, per region, a
  segment record entered from the thread state before it and left at the one after it, the program terminates without a
  fault, the result buffer ends at the last valuation's contents, and no argument array changes (no host operation
  writes one and no region has one as an output).
-/
import proofs.«153701_j33655363732257_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main given one segment record per region: every weakly fair execution from memory `m` with zero counters
    terminates, and every final memory holds the result buffer `main_v61` at the last valuation's contents
    `V10 m outs c main_v61` and each argument as launched. The hypotheses are those of the conditional frame; the one
    difference is that the result buffer is read off the last thread state beside the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c)) :
    θ_run defs (onTc (τ := τ) (main (F := F))) ⟨m, fun _ => 0, ρ⟩ (fun r => ∀ c : Dev nD,
      r.2.mem ((c.tc : Thread nD τ).loc main_v61) = V10 m outs c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, (hpost1 c).trans (hpre2 c), hpost2 c, hpre3 c, hpost3 c, sep_mono .rfl (hE4 c)⟩)
    (hinit := ?_) (QY := fun c s => s.mem ((c.tc : Thread nD τ).loc main_v61) = V10 m outs c main_v61 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v61) (Finset.mem_filter.mpr ⟨StableHlo.devRef_mem_tcRefs main_v61, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c)⟩
    · iexact HSI

end Cert.KernelIdeal.Hand

end
-- ==== Proof.KI.Reg0.lean ====
import proofs.«153701_j33655363732257_1_alg».proof.Proof.Gen.KernelIdeal.Launch
import proofs.«153701_j33655363732257_1_alg».proof.Proof.Gen.KernelIdeal.Skeleton
import proofs.«153701_j33655363732257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0: `cc0__matmul_kernel` (the first layer's product), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: its block index is
    constant, so an unfetched point still finds the block of the point before, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S5000x64 := Rect.unit (s := S5000x64) ![0, 0] S5000x64.size inb_S5000x64_S5000x64_0_0

/-! ## What the body leaves in the output window's buffer -/

/-- Window 2's staging buffer after the body, from the input windows' blocks: its one store, of the whole block. -/
def out0_2 (x0 : Vec F S5000x4 .f32) (x1 : Vec F S4x64 .f32) : Vec F S5000x64 .f32 :=
  View.canon [⟨r0_2, k0_pay1 (View.ld x0 r0_0) (View.ld x1 r0_1)⟩]

/-- The store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at read contents `x0`, `x1` and the output's at anything,
    runs to the continuation holding the inputs' as they were and the output's at `out0_2` of the inputs'. The body
    also loads the output's buffer before it stores (the loaded value is not used). -/
theorem sound_kernel0 (c : Dev nD) (E : Set ℕ) (i : grid0.Coords) (arg1 : Memref sig .tc .vmem S5000x4 .f32) (harg1 : arg1.IsWhole) (arg2 : Memref sig .tc .vmem S4x64 .f32) (harg2 : arg2.IsWhole) (arg3 : Memref sig .tc .vmem S5000x64 .f32) (harg3 : arg3.IsWhole)
    (x0 : Vec F S5000x4 .f32) (x1 : Vec F S4x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«153701_j33655363732257_1_alg».proof.Proof.Gen.KernelIdeal.Launch
import proofs.«153701_j33655363732257_1_alg».proof.Proof.Gen.KernelIdeal.Skeleton
import proofs.«153701_j33655363732257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: `cc1__bias_relu_kernel` (bias and rectifier), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: its block index is
    constant, so an unfetched point still finds the block of the point before, which is its own. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S5000x64 := Rect.unit (s := S5000x64) ![0, 0] S5000x64.size inb_S5000x64_S5000x64_0_0

/-! ## What the body leaves in the output window's buffer -/

/-- Window 2's staging buffer after the body, from the input windows' blocks: its one store, of the whole block. -/
def out1_2 (x0 : Vec F S5000x64 .f32) (x1 : Vec F S1x64 .f32) : Vec F S5000x64 .f32 :=
  View.canon [⟨r1_2, k1_pay1 (View.ld x0 r1_0) (View.ld x1 r1_1)⟩]

/-- The store covers the buffer. -/
theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

/-! ## The body's triple -/

set_option maxHeartbeats 1000000 in
/-- The kernel body on whole staging memrefs, the inputs' at read contents `x0`, `x1` and the output's at anything,
    runs to the continuation holding the inputs' as they were and the output's at `out1_2` of the inputs'. The body
    also loads the output's buffer before it stores (the loaded value is not used). -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«153701_j33655363732257_1_alg».proof.Proof.Gen.KernelIdeal.Launch
import proofs.«153701_j33655363732257_1_alg».proof.Proof.Gen.KernelIdeal.Skeleton
import proofs.«153701_j33655363732257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2: `cc2__matmul_kernel` (the second layer's product), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not: its block index is
    constant, so an unfetched point still finds the block of the point before, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x64 := Rect.unit (s := S5000x64) ![0, 0] S5000x64.size inb_S5000x64_S5000x64_0_0
abbrev r2_1 : Rect S64x32 := Rect.unit (s := S64x32) ![0, 0] S64x32.size inb_S64x32_S64x32_0_0
abbrev r2_2 : Rect S5000x32 := Rect.unit (s := S5000x32) ![0, 0] S5000x32.size inb_S5000x32_S5000x32_0_0

/-! ## What the body leaves in the output window's buffer -/

/-- Window 2's staging buffer after the body, from the input windows' blocks: its one store, of the whole block. -/
def out2_2 (x0 : Vec F S5000x64 .f32) (x1 : Vec F S64x32 .f32) : Vec F S5000x32 .f32 :=
  View.canon [⟨r2_2, k2_pay1 (View.ld x0 r2_0) (View.ld x1 r2_1)⟩]

/-- The store covers the buffer. -/
theorem cover2_2 (p0 : Vec F S5000x32 .f32) (y : S5000x32.Idx) :
    ∃ pc ∈ ([⟨r2_2, p0⟩] : List (View.Piece (Elt F) S5000x32 .f32)), y ∈ pc.1.set :=
  View.cover_of_tiled [⟨r2_2, p0⟩] S5000x32.size (by rfl) y

/-! ## The body's triple -/

set_option maxHeartbeats 1000000 in
/-- The kernel body on whole staging memrefs, the inputs' at read contents `x0`, `x1` and the output's at anything,
    runs to the continuation holding the inputs' as they were and the output's at `out2_2` of the inputs'. The body
    also loads the output's buffer before it stores (the loaded value is not used). -/
theorem sound_kernel2 (c : Dev nD) (E : Set ℕ) (i : grid2.Coords) (arg1 : Memref sig .tc .vmem S5000x64 .f32) (harg1 : arg1.IsWhole) (arg2 : Memref sig .tc .vmem S64x32 .f32) (harg2 : arg2.IsWhole) (arg3 : Memref sig .tc .vmem S5000x32 .f32) (harg3 : arg3.IsWhole)
    (x0 : Vec F S5000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Run.lean ====
import proofs.«153701_j33655363732257_1_alg».proof.Proof.Gen.KernelIdeal.Launch
import proofs.«153701_j33655363732257_1_alg».proof.Proof.Gen.KernelIdeal.Skeleton
import proofs.«153701_j33655363732257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

/-- The first conditional's condition (the point is the first), from the grid coordinates. -/
abbrev cond3_0 (i : grid3.Coords) : Prop := (Scalar.cmpi .ne (Scalar.extui (Scalar.cmpi .eq (BitVec.ofNat 32 (i 0).val) 0#32)) 0#32) = 1#1
/-- The second conditional's condition (the point is the last). -/
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 19 :=
  (by decide +kernel : ∀ t : Fin grid3.N, cond3_1 (grid3.coords t) ↔ t.val = 19)

abbrev r3_s : Rect S1x32 := Rect.unit (s := S1x32) ![0, 0] S1x32.size inb_S1x32_S1x32_0_0
abbrev r3_0 : Rect S5000x32 := Rect.unit (s := S5000x32) ![0, 0] S5000x32.size inb_S5000x32_S5000x32_0_0

theorem hz2 : (![0, 0] : Fin 2 → Nat) = fun _ => 0 := funext fun a => by fin_cases a <;> rfl

/-- A store through the whole-shape rectangle, last, covers the shape. -/
theorem cover_cons_unit_zero {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self, by show y ∈ (Rect.whole S).set; rw [Rect.set_whole]; exact Finset.mem_univ y⟩

set_option maxHeartbeats 1000000 in
theorem sound_kernel3_A (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (hc0 : cond3_0 i) (hc1 : ¬cond3_1 i)
    (x0 : Vec F S5000x32 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 (k3_pay1 (F := F)) x0)) -∗ K ⟨⟩))
      ⊢ wp frame (wpE (defs₀ (F := F)) Variants.none c none) E (cc3__reduce_kernel i arg1 harg1 arg2 harg2 arg3 harg3 arg4 harg4) K := by
  simp only [cc3__reduce_kernel_eq_skeleton]; unfold cc3__reduce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover_cons_unit_zero hz2 _ _ _), View.canon_cons_unit_zero (S := S1x32) hz2,
    View.readCov_unit_zero (S := S1x32) _ hz2]
  simp only [View.readAt_eq_ld, View.ld_unit_zero (S := S1x32) hz2, View.ld_unit_zero (S := S5000x32) hz2]

set_option maxHeartbeats 1000000 in
theorem sound_kernel3_B (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (hc0 : ¬cond3_0 i) (hc1 : ¬cond3_1 i)
    (x0 : Vec F S5000x32 .f32) (x1 : Vec F S1x32 .f32) (x2 : Vec F S1x32 .f32) (xs : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 xs x0)) -∗ K ⟨⟩))
      ⊢ wp frame (wpE (defs₀ (F := F)) Variants.none c none) E (cc3__reduce_kernel i arg1 harg1 arg2 harg2 arg3 harg3 arg4 harg4) K := by
  simp only [cc3__reduce_kernel_eq_skeleton]; unfold cc3__reduce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover_cons_unit_zero hz2 _ _ _), View.canon_cons_unit_zero (S := S1x32) hz2]
  simp only [View.readAt_eq_ld, View.ld_unit_zero (S := S1x32) hz2, View.ld_unit_zero (S := S5000x32) hz2]

set_option maxHeartbeats 1000000 in
theorem sound_kernel3_C (c : Dev nD) (E : Set ℕ) (i : grid3.Coords)
    (arg1 : Memref sig .tc .vmem S5000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (hc0 : ¬cond3_0 i) (hc1 : cond3_1 i)
    (x0 : Vec F S5000x32 .f32) (x1 : Vec F S1x32 .f32) (xs : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay3 (k3_pay2 xs x0) x1)
            ∗ owns (c : Thread nD τ) arg4 fullShare (k3_pay2 xs x0)) -∗ K ⟨⟩))
      ⊢ wp frame (wpE (defs₀ (F := F)) Variants.none c none) E (cc3__reduce_kernel i arg1 harg1 arg2 harg2 arg3 harg3 arg4 harg4) K := by
  simp only [cc3__reduce_kernel_eq_skeleton]; unfold cc3__reduce_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_cons_unit_zero hz2 _ _ _), View.canon_cons_unit_zero (S := S1x32) hz2,
      View.readCov_unit_zero (S := S1x32) _ hz2]
    simp only [View.readAt_eq_ld, View.ld_unit_zero (S := S1x32) hz2, View.ld_unit_zero (S := S5000x32) hz2]
  iexists _; isplitr
  swap; · iexact HS
  ipureintro
  sl_unfold_words
  rw [View.read_writes_eq_canon _ _ _ (cover_cons_unit_zero hz2 _ _ _), View.canon_cons_unit_zero (S := S1x32) hz2]
  simp only [View.readAt_eq_ld, View.ld_unit_zero (S := S1x32) hz2, View.ld_unit_zero (S := S5000x32) hz2]

end Cert.KernelIdeal.Hand
end
-- ==== Proof.KI.Reg3.lean ====
import proofs.«153701_j33655363732257_1_alg».proof.Proof.Gen.KernelIdeal.Launch
import proofs.«153701_j33655363732257_1_alg».proof.Proof.Gen.KernelIdeal.Skeleton
import proofs.«153701_j33655363732257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«153701_j33655363732257_1_alg».proof.Proof.KI.Reg3Run
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (fetched at the first point only, its block index constant) likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Off the last point the output window is idle (the body stores nothing into it) -/
theorem idleAt3_2 : ∀ t : Fin cfg3.N, ¬cond3_1 (grid3.coords t) → cfg3.idle 2 (grid3.coords t) = true := by decide +kernel
/-- and is not written back; -/
theorem noFlush3_2 : ∀ t : Fin cfg3.N, ¬cond3_1 (grid3.coords t) → (cfg3.win 2).flush t = false := by decide +kernel
/-- at the last point it is live. -/
theorem liveAt3_2 : ∀ t : Fin cfg3.N, cond3_1 (grid3.coords t) → cfg3.idle 2 (grid3.coords t) = false := by decide +kernel

/-! ## The accumulator carried in the scratch buffer -/

/-- The scratch operand: a whole scoped buffer of the kernel's own, passed beside the windows. -/
abbrev scM3 : Memref sig .tc .vmem S1x32 .f32 := Memref.whole cc3_scratch0

/-- The scratch after the first `n` points: the zero row, then at each point the column sums of that point's block
    of window 0 added to it (the value at 0 is the reset's, which the first point stores before reading). -/
def acc3 (c : Dev nD) : Nat → Vec F S1x32 .f32
  | 0 => k3_pay1
  | n + 1 => if h : n < cfg3.N then k3_pay2 (acc3 c n) (iblk3 V c 0 ⟨n, h⟩) else acc3 c n

theorem acc3_zero (c : Dev nD) : acc3 V c 0 = k3_pay1 := rfl

theorem acc3_succ (c : Dev nD) (t : Fin cfg3.N) : acc3 V c (t.val + 1) = k3_pay2 (acc3 V c t.val) (iblk3 V c 0 t) := by
  rw [acc3.eq_2]; exact dif_pos t.isLt

/-! ## The invariant -/

/-- The scoped rest of the region is the scratch buffer at some contents beside every other scoped buffer that is
    no staging buffer of the region. -/
theorem scopedRest3_split (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ Pipeline.scopedRestBut (Ix := Unit) (Name := ℕ) (U := UR sig nD τ) (Lvl := ℕ) (Val := Elt F) spec3 c [cc3_scratch0]) := by
  rw [Pipeline.scopedRest_split_of_list spec3 c [cc3_scratch0] (by decide) (by decide)]
  simp only [scM3, owns_whole]; try rfl

/-- The region invariant before position `n`: before the first point what the launch hands the region (the generator
    register and the scoped rest, the scratch at anything); afterwards the scratch at the accumulator. -/
def Phi3 (c : Dev nD) : ℕ → sProp 𝕄
  | 0 => iprop((∃ r, prngReg c r) ∗ Pipeline.scopedRest (Ix := Unit) (Name := ℕ) (U := UR sig nD τ) (Lvl := ℕ) spec3 c)
  | n + 1 => iprop((∃ r, prngReg c r) ∗ owns (c : Thread nD τ) scM3 fullShare (acc3 V c (n + 1))
      ∗ Pipeline.scopedRestBut (Ix := Unit) (Name := ℕ) (U := UR sig nD τ) (Lvl := ℕ) spec3 c [cc3_scratch0])

theorem Phi3_zero (c : Dev nD) (n : ℕ) (hz : n = 0) :
    Phi3 V c n = iprop((∃ r, prngReg c r) ∗ Pipeline.scopedRest (Ix := Unit) (Name := ℕ) (U := UR sig nD τ) (Lvl := ℕ) spec3 c) := by
  subst hz; rfl

theorem Phi3_succ (c : Dev nD) (n : ℕ) :
    Phi3 V c (n + 1) = iprop((∃ r, prngReg c r) ∗ owns (c : Thread nD τ) scM3 fullShare (acc3 V c (n + 1))
      ∗ Pipeline.scopedRestBut (Ix := Unit) (Name := ℕ) (U := UR sig nD τ) (Lvl := ℕ) spec3 c [cc3_scratch0]) := rfl

theorem Phi3_pos (c : Dev nD) (n : ℕ) (hz : n ≠ 0) :
    Phi3 V c n = iprop((∃ r, prngReg c r) ∗ owns (c : Thread nD τ) scM3 fullShare (acc3 V c n)
      ∗ Pipeline.scopedRestBut (Ix := Unit) (Name := ℕ) (U := UR sig nD τ) (Lvl := ℕ) spec3 c [cc3_scratch0]) := by
  cases n with
  | zero => exact absurd rfl hz
  | succ n => rfl

/-! ## The pipeline's proof data -/

/-- The proof data of the pipeline on core `c`: the arrays as the region finds them; after the body each input's buffer
    at its block, the output's at the mean row computed from the accumulator (read at the last point only); the
    invariant tracking the scratch; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c (t.val + 1)) (iblk3 V c 1 t)
  Φ t := Phi3 V c t.val
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) : (dat3 V c).Φ t.castSucc = Phi3 V c t.val := by
  dsimp only [dat3]; try simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = k3_pay3 (acc3 V c (t.val + 1)) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the point is the first, a middle one or the last
    (`by_cases` on the conditions' closed forms) and that case's run applies; the invariant hands the body the scratch
    at the accumulator so far (at anything at the first point) and takes it back at the accumulator after the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, Phi3_succ, Phi3_castSucc, acc3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val = 0
  · have h1 : ¬t.val = 19 := by omega
    rw [Dat.leavesExact_idle (dat3 V c) 2 t (idleAt3_2 t (fun h => h1 ((hcond3_1 t).mp h))) (noFlush3_2 t (fun h => h1 ((hcond3_1 t).mp h)))]
    rw [Phi3_zero V c _ h0, scopedRest3_split, show acc3 V c t.val = k3_pay1 from by rw [h0]; rfl]
    iintro ⟨⟨Hg, HS, HR⟩, Ho, ⟨%d0, H0⟩, ⟨%d1, H1⟩, ⟨%d2, H2⟩⟩
    iapply (sound_kernel3_A c Set.univ (grid3.coords t) _ _ _ _ _ _ _ _ ((hcond3_0 t).mpr h0) (fun h => h1 ((hcond3_1 t).mp h)) (iblk3 V c 0 t) (iblk3 V c 1 t) _ _)
    isplitl [H0]; · iexact H0
    isplitl [H1]; · iexact H1
    isplitl [H2]; · iexact H2
    isplitl [HS]; · iexact HS
    iintro ⟨H0, H1, H2, HS⟩
    isplitl [Hg HS HR]
    · isplitl [Hg]; · iexact Hg
      isplitl [HS]; · iexact HS
      iexact HR
    isplitl [Ho]; · iexact Ho
    isplitl [H0]; · iexact H0
    isplitl [H1]; · iexact H1
    iexists _; iexact H2
  · by_cases h1 : t.val = 19
    · rw [show (dat3 V c).leavesExact 2 t = owns (c : Thread nD τ) (st3_2 t) fullShare ((dat3 V c).after 2 t) from by
        unfold Dat.leavesExact; rw [liveAt3_2 t ((hcond3_1 t).mpr h1)], after3_2, acc3_succ]
      rw [Phi3_pos V c _ h0]
      iintro ⟨⟨Hg, HS, HR⟩, Ho, ⟨%d0, H0⟩, ⟨%d1, H1⟩, ⟨%d2, H2⟩⟩
      iapply (sound_kernel3_C c Set.univ (grid3.coords t) _ _ _ _ _ _ _ _ (fun h => h0 ((hcond3_0 t).mp h)) ((hcond3_1 t).mpr h1) (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexact H2
    · rw [Dat.leavesExact_idle (dat3 V c) 2 t (idleAt3_2 t (fun h => h1 ((hcond3_1 t).mp h))) (noFlush3_2 t (fun h => h1 ((hcond3_1 t).mp h)))]
      rw [Phi3_pos V c _ h0]
      iintro ⟨⟨Hg, HS, HR⟩, Ho, ⟨%d0, H0⟩, ⟨%d1, H1⟩, ⟨%d2, H2⟩⟩
      iapply (sound_kernel3_B c Set.univ (grid3.coords t) _ _ _ _ _ _ _ _ (fun h => h0 ((hcond3_0 t).mp h)) (fun h => h1 ((hcond3_1 t).mp h)) (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [Hg HS HR]
      · isplitl [Hg]; · iexact Hg
        isplitl [HS]; · iexact HS
        iexact HR
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) :
    iprop((∃ r, prngReg c r) ∗ Pipeline.scopedRest (Ix := Unit) (Name := ℕ) (U := UR sig nD τ) (Lvl := ℕ) spec3 c) ⊢ ((dat3 V c).Φ 0 : sProp 𝕄) := by
  rw [show (dat3 V c).Φ 0 = Phi3 V c 0 from rfl, Phi3_zero V c 0 rfl]
  try exact Idealize.SL.BI.Entails.refl _

/-- After any point the invariant gives the scoped rest back: the scratch's named contents are forgotten. -/
theorem hout3 (c : Dev nD) :
    ((dat3 V c).Φ (Fin.last cfg3.N) : sProp 𝕄) ⊢ iprop((∃ r, prngReg c r) ∗ Pipeline.scopedRest (Ix := Unit) (Name := ℕ) (U := UR sig nD τ) (Lvl := ℕ) spec3 c) := by
  rw [show (dat3 V c).Φ (Fin.last cfg3.N) = Phi3 V c (Fin.last cfg3.N).val from rfl,
    Phi3_pos V c _ (by rw [Fin.val_last]; have : cfg3.N = 20 := N_3; omega), scopedRest3_split]
  iintro ⟨Hg, HS, HR⟩
  isplitl [Hg]; · iexact Hg
  isplitl [HS]; · iexists _; iexact HS
  iexact HR

end Cert.KernelIdeal.Hand
end
-- ==== Proof.KI.Run.lean ====
/-
  The run of the four-region program.

  Each region's pipeline is given its proof data at the contents the region is entered at; its record as a segment of
  @main splits the region's arrays out of the core's unscoped buffers, runs the pipeline, and puts the arrays back with
  the output array replaced by the fold of its blocks' write-backs. Chained with the host stretches, the records give:
  @main terminates without a fault, the result buffer ends at the last valuation's contents, and the argument arrays
  end as launched. Regions 0, 1 and 2 keep nothing between grid points; region 3 carries its accumulator in a scratch
  buffer, which its invariant tracks from the first point to the last.
-/
import proofs.«153701_j33655363732257_1_alg».proof.Proof.KI.RunCond
import proofs.«153701_j33655363732257_1_alg».proof.Proof.KI.Reg0
import proofs.«153701_j33655363732257_1_alg».proof.Proof.KI.Reg1
import proofs.«153701_j33655363732257_1_alg».proof.Proof.KI.Reg2
import proofs.«153701_j33655363732257_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each region leaves in its output array, one region after the other

Region 0 is entered at the launch memory with the first three host stretches applied; what it leaves in its output array
is the fold of its blocks' write-backs. Each later region is entered at the contents the items before it leave, so its
output is defined from the outputs before it. -/

/-- The array of the first matrix product after region 0. -/
def o4 (c : Dev nD) : Buf (Elt F) ((c : Thread nD τ).loc main_v31) :=
  (dat0 (fun c b => Gen.V3 m c b) c).arrAt 2 cfg0.N
/-- The regions' outputs known after region 0. -/
def outsA : Gen.Outs (F := F) := fun _ r c => Function.update (Gen.V3 m c) main_v31 (o4 m c) r
/-- The array of the rectified first layer after region 1. -/
def o6 (c : Dev nD) : Buf (Elt F) ((c : Thread nD τ).loc main_v45) :=
  (dat1 (fun c b => Gen.V5 m (outsA m) c b) c).arrAt 2 cfg1.N
/-- The regions' outputs known after region 1. -/
def outsB : Gen.Outs (F := F) := fun _ r c =>
  Function.update (Function.update (Gen.V3 m c) main_v31 (o4 m c)) main_v45 (o6 m c) r
/-- The array of the second matrix product after region 2. -/
def o7 (c : Dev nD) : Buf (Elt F) ((c : Thread nD τ).loc main_v46) :=
  (dat2 (fun c b => Gen.V6 m (outsB m) c b) c).arrAt 2 cfg2.N
/-- The regions' outputs known after region 2. -/
def outsC : Gen.Outs (F := F) := fun _ r c =>
  Function.update (Function.update (Function.update (Gen.V3 m c) main_v31 (o4 m c)) main_v45 (o6 m c)) main_v46 (o7 m c) r
/-- The row of column means plus bias after region 3. -/
def o9 (c : Dev nD) : Buf (Elt F) ((c : Thread nD τ).loc main_v60) :=
  (dat3 (fun c b => Gen.V8 m (outsC m) c b) c).arrAt 2 cfg3.N
/-- All four regions' outputs. -/
def outs : Gen.Outs (F := F) := fun _ r c =>
  Function.update (Function.update (Function.update (Function.update (Gen.V3 m c) main_v31 (o4 m c)) main_v45 (o6 m c)) main_v46 (o7 m c)) main_v60 (o9 m c) r

theorem ne_31_45 : (Proc.devRef .tc main_v31 : DevRef τ sig) ≠ Proc.devRef .tc main_v45 := StableHlo.devRef_ne_of_ne (by decide)
theorem ne_31_46 : (Proc.devRef .tc main_v31 : DevRef τ sig) ≠ Proc.devRef .tc main_v46 := StableHlo.devRef_ne_of_ne (by decide)
theorem ne_31_60 : (Proc.devRef .tc main_v31 : DevRef τ sig) ≠ Proc.devRef .tc main_v60 := StableHlo.devRef_ne_of_ne (by decide)
theorem ne_45_46 : (Proc.devRef .tc main_v45 : DevRef τ sig) ≠ Proc.devRef .tc main_v46 := StableHlo.devRef_ne_of_ne (by decide)
theorem ne_45_60 : (Proc.devRef .tc main_v45 : DevRef τ sig) ≠ Proc.devRef .tc main_v60 := StableHlo.devRef_ne_of_ne (by decide)
theorem ne_46_60 : (Proc.devRef .tc main_v46 : DevRef τ sig) ≠ Proc.devRef .tc main_v60 := StableHlo.devRef_ne_of_ne (by decide)

theorem outsA_31 (n : ℕ) (c : Dev nD) : outsA m n main_v31 c = o4 m c := by
  unfold outsA; exact Function.update_self ..
theorem outsB_31 (n : ℕ) (c : Dev nD) : outsB m n main_v31 c = o4 m c := by
  unfold outsB; rw [Function.update_of_ne ne_31_45]; exact Function.update_self ..
theorem outsB_45 (n : ℕ) (c : Dev nD) : outsB m n main_v45 c = o6 m c := by
  unfold outsB; exact Function.update_self ..
theorem outsC_31 (n : ℕ) (c : Dev nD) : outsC m n main_v31 c = o4 m c := by
  unfold outsC; rw [Function.update_of_ne ne_31_46, Function.update_of_ne ne_31_45]; exact Function.update_self ..
theorem outsC_45 (n : ℕ) (c : Dev nD) : outsC m n main_v45 c = o6 m c := by
  unfold outsC; rw [Function.update_of_ne ne_45_46]; exact Function.update_self ..
theorem outsC_46 (n : ℕ) (c : Dev nD) : outsC m n main_v46 c = o7 m c := by
  unfold outsC; exact Function.update_self ..
theorem outs_31 (n : ℕ) (c : Dev nD) : outs m n main_v31 c = o4 m c := by
  unfold outs; rw [Function.update_of_ne ne_31_60, Function.update_of_ne ne_31_46, Function.update_of_ne ne_31_45]; exact Function.update_self ..
theorem outs_45 (n : ℕ) (c : Dev nD) : outs m n main_v45 c = o6 m c := by
  unfold outs; rw [Function.update_of_ne ne_45_60, Function.update_of_ne ne_45_46]; exact Function.update_self ..
theorem outs_46 (n : ℕ) (c : Dev nD) : outs m n main_v46 c = o7 m c := by
  unfold outs; rw [Function.update_of_ne ne_46_60]; exact Function.update_self ..
theorem outs_60 (n : ℕ) (c : Dev nD) : outs m n main_v60 c = o9 m c := by
  unfold outs; exact Function.update_self ..

/-! The valuations between items read only the outputs of the regions before them. -/

theorem V4_congr (o o' : Gen.Outs (F := F)) (c : Dev nD) (h4 : o 4 main_v31 c = o' 4 main_v31 c) : Gen.V4 m o c = Gen.V4 m o' c := by
  show Function.update (Gen.V3 m c) _ (o 4 main_v31 c) = Function.update (Gen.V3 m c) _ (o' 4 main_v31 c)
  rw [h4]
theorem V5_congr (o o' : Gen.Outs (F := F)) (c : Dev nD) (h4 : o 4 main_v31 c = o' 4 main_v31 c) : Gen.V5 m o c = Gen.V5 m o' c := by
  show StableHlo.after hostOps1 (Gen.V4 m o c) = StableHlo.after hostOps1 (Gen.V4 m o' c)
  rw [V4_congr m o o' c h4]
theorem V6_congr (o o' : Gen.Outs (F := F)) (c : Dev nD) (h4 : o 4 main_v31 c = o' 4 main_v31 c) (h6 : o 6 main_v45 c = o' 6 main_v45 c) :
    Gen.V6 m o c = Gen.V6 m o' c := by
  show Function.update (Gen.V5 m o c) _ (o 6 main_v45 c) = Function.update (Gen.V5 m o' c) _ (o' 6 main_v45 c)
  rw [V5_congr m o o' c h4, h6]
theorem V7_congr (o o' : Gen.Outs (F := F)) (c : Dev nD) (h4 : o 4 main_v31 c = o' 4 main_v31 c) (h6 : o 6 main_v45 c = o' 6 main_v45 c)
    (h7 : o 7 main_v46 c = o' 7 main_v46 c) : Gen.V7 m o c = Gen.V7 m o' c := by
  show Function.update (Gen.V6 m o c) _ (o 7 main_v46 c) = Function.update (Gen.V6 m o' c) _ (o' 7 main_v46 c)
  rw [V6_congr m o o' c h4 h6, h7]
theorem V8_congr (o o' : Gen.Outs (F := F)) (c : Dev nD) (h4 : o 4 main_v31 c = o' 4 main_v31 c) (h6 : o 6 main_v45 c = o' 6 main_v45 c)
    (h7 : o 7 main_v46 c = o' 7 main_v46 c) : Gen.V8 m o c = Gen.V8 m o' c := by
  show StableHlo.after hostOps3 (Gen.V7 m o c) = StableHlo.after hostOps3 (Gen.V7 m o' c)
  rw [V7_congr m o o' c h4 h6 h7]

theorem V5_outs (c : Dev nD) : Gen.V5 m (outs m) c = Gen.V5 m (outsA m) c :=
  V5_congr m _ _ c ((outs_31 m 4 c).trans (outsA_31 m 4 c).symm)
theorem V6_outs (c : Dev nD) : Gen.V6 m (outs m) c = Gen.V6 m (outsB m) c :=
  V6_congr m _ _ c ((outs_31 m 4 c).trans (outsB_31 m 4 c).symm) ((outs_45 m 6 c).trans (outsB_45 m 6 c).symm)
theorem V5_outsB (c : Dev nD) : Gen.V5 m (outsB m) c = Gen.V5 m (outsA m) c :=
  V5_congr m _ _ c ((outsB_31 m 4 c).trans (outsA_31 m 4 c).symm)
theorem V8_outs (c : Dev nD) : Gen.V8 m (outs m) c = Gen.V8 m (outsC m) c :=
  V8_congr m _ _ c ((outs_31 m 4 c).trans (outsC_31 m 4 c).symm) ((outs_45 m 6 c).trans (outsC_45 m 6 c).symm)
    ((outs_46 m 7 c).trans (outsC_46 m 7 c).symm)
theorem V6_outsC (c : Dev nD) : Gen.V6 m (outsC m) c = Gen.V6 m (outsB m) c :=
  V6_congr m _ _ c ((outsC_31 m 4 c).trans (outsB_31 m 4 c).symm) ((outsC_45 m 6 c).trans (outsB_45 m 6 c).symm)

/-! ## The thread state beside the buffers, and the proof data of the four pipelines -/

/-- No core owes another anything: no level is assigned. -/
abbrev Lz : GSem nD τ sig → Finset Unit := fun _ => ∅
abbrev lvz : GSem nD τ sig → Unit → ℕ := fun _ _ => 0
/-- What rides beside the buffers through every item: the core's generator register at some state and its debts, none. -/
abbrev Rst (c : Dev nD) : sProp 𝕄 := iprop((∃ r, prngReg c r) ∗ ∃ W, owes (c : Thread nD τ) (0 : CellTallies nD τ sig Unit) W)

/-- Every pipeline's proof data, each at its region's entry contents. -/
def pdats : (p : Fin 4) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V5 m (outsA m) c b) c
  | ⟨2, _⟩ => fun c => dat2 (fun c b => Gen.V6 m (outsB m) c b) c
  | ⟨3, _⟩ => fun c => dat3 (fun c b => Gen.V8 m (outsC m) c b) c

/-- At region 0's exit its output array holds what the pipeline leaves and its input arrays what they held at entry, -/
theorem hF0 (c : Dev nD) (w : Fin cfg0.W) : (pdats m 0 c).arrAt w cfg0.N = Gen.V4 m (outs m) c (Pipeline.arrRef spec0 w) := by
  match w with
  | ⟨0, _⟩ =>
    refine ((pdats m 0 c).arrAt_in 0 rfl _).trans ?_
    exact (Gen.V4_of m (outs m) c main_arg0 (by decide)).symm
  | ⟨1, _⟩ =>
    refine ((pdats m 0 c).arrAt_in 1 rfl _).trans ?_
    exact (Gen.V4_of m (outs m) c main_arg2 (by decide)).symm
  | ⟨2, _⟩ =>
    have h : Gen.V4 m (outs m) c (Proc.devRef .tc main_v31) = outs m 4 main_v31 c := Function.update_self ..
    exact (h.trans (outs_31 m 4 c)).symm
/-- and every other buffer what it held at entry. -/
theorem hrest0 (c : Dev nD) : ∀ b, b ∉ Finset.univ.image (Pipeline.arrRef spec0) → Gen.V4 m (outs m) c b = Gen.V3 m c b :=
  fun b hb => Gen.V4_of m (outs m) c b fun hmem => hb (Finset.mem_image.mpr ⟨2, Finset.mem_univ _, (List.mem_singleton.mp hmem).symm⟩)

set_option backward.isDefEq.respectTransparency.types false in
/-- Region 0 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg0 : RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => Gen.V3 m c b) c).loose
  hwaits := Pipeline.hwaits_of_owed_zero _ _ _ _ Lz lvz 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! Region 1 is entered at the contents after the fourth host stretch, region 2 at region 1's exit, region 3 after the
    fifth stretch; each is stated at the outputs known when it is entered, which agree with the final ones there. -/

theorem Vof1 (c : Dev nD) (r : Ref sig .tc) (h : r ∉ ([main_v45] : List (Ref sig .tc))) :
    Gen.V6 m (outs m) c r = Gen.V5 m (outsA m) c r :=
  (Gen.V6_of m (outs m) c r h).trans (congrFun (V5_outs m c) _)
theorem Vof2 (c : Dev nD) (r : Ref sig .tc) (h : r ∉ ([main_v46] : List (Ref sig .tc))) :
    Gen.V7 m (outs m) c r = Gen.V6 m (outsB m) c r :=
  (Gen.V7_of m (outs m) c r h).trans (congrFun (V6_outs m c) _)
theorem Vof3 (c : Dev nD) (r : Ref sig .tc) (h : r ∉ ([main_v60] : List (Ref sig .tc))) :
    Gen.V9 m (outs m) c r = Gen.V8 m (outsC m) c r :=
  (Gen.V9_of m (outs m) c r h).trans (congrFun (V8_outs m c) _)

/-- At region 1's exit its output array holds what the pipeline leaves and its input arrays what they held at entry, -/
theorem hF1 (c : Dev nD) (w : Fin cfg1.W) : (pdats m 1 c).arrAt w cfg1.N = Gen.V6 m (outs m) c (Pipeline.arrRef spec1 w) := by
  match w with
  | ⟨0, _⟩ =>
    refine ((pdats m 1 c).arrAt_in 0 rfl _).trans ?_
    exact (Vof1 m c main_v43 (by decide)).symm
  | ⟨1, _⟩ =>
    refine ((pdats m 1 c).arrAt_in 1 rfl _).trans ?_
    exact (Vof1 m c main_v44 (by decide)).symm
  | ⟨2, _⟩ =>
    have h : Gen.V6 m (outs m) c (Proc.devRef .tc main_v45) = outs m 6 main_v45 c := Function.update_self ..
    exact (h.trans (outs_45 m 6 c)).symm
/-- and every other buffer what it held at entry. -/
theorem hrest1 (c : Dev nD) : ∀ b, b ∉ Finset.univ.image (Pipeline.arrRef spec1) → Gen.V6 m (outs m) c b = Gen.V5 m (outsA m) c b :=
  fun b hb => Vof1 m c b fun hmem => hb (Finset.mem_image.mpr ⟨2, Finset.mem_univ _, (List.mem_singleton.mp hmem).symm⟩)

set_option backward.isDefEq.respectTransparency.types false in
/-- Region 1 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg1 : RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => Gen.V5 m (outsA m) c b) c).loose
  hwaits := Pipeline.hwaits_of_owed_zero _ _ _ _ Lz lvz 1 fun _ _ => rfl
  pre c := iprop(StableHlo.held (c : Thread nD τ) (Pipeline.ucRefs τ sig) (Gen.V5 m (outsA m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => Gen.V5 m (outsA m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V5 m (outsA m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V5 m (outsA m) c b) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit its output array holds what the pipeline leaves and its input arrays what they held at entry, -/
theorem hF2 (c : Dev nD) (w : Fin cfg2.W) : (pdats m 2 c).arrAt w cfg2.N = Gen.V7 m (outs m) c (Pipeline.arrRef spec2 w) := by
  match w with
  | ⟨0, _⟩ =>
    refine ((pdats m 2 c).arrAt_in 0 rfl _).trans ?_
    exact (Vof2 m c main_v45 (by decide)).symm
  | ⟨1, _⟩ =>
    refine ((pdats m 2 c).arrAt_in 1 rfl _).trans ?_
    exact (Vof2 m c main_arg4 (by decide)).symm
  | ⟨2, _⟩ =>
    have h : Gen.V7 m (outs m) c (Proc.devRef .tc main_v46) = outs m 7 main_v46 c := Function.update_self ..
    exact (h.trans (outs_46 m 7 c)).symm
/-- and every other buffer what it held at entry. -/
theorem hrest2 (c : Dev nD) : ∀ b, b ∉ Finset.univ.image (Pipeline.arrRef spec2) → Gen.V7 m (outs m) c b = Gen.V6 m (outsB m) c b :=
  fun b hb => Vof2 m c b fun hmem => hb (Finset.mem_image.mpr ⟨2, Finset.mem_univ _, (List.mem_singleton.mp hmem).symm⟩)

set_option backward.isDefEq.respectTransparency.types false in
/-- Region 2 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg2 : RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (fun c b => Gen.V6 m (outsB m) c b) c).loose
  hwaits := Pipeline.hwaits_of_owed_zero _ _ _ _ Lz lvz 2 fun _ _ => rfl
  pre c := iprop(StableHlo.held (c : Thread nD τ) (Pipeline.ucRefs τ sig) (Gen.V6 m (outsB m) c) ∗ Rst c)
  post c := iprop(StableHlo.held (c : Thread nD τ) (Pipeline.ucRefs τ sig) (Gen.V7 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => Gen.V6 m (outsB m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => Gen.V6 m (outsB m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V6 m (outsB m) c b) (fun b => Gen.V7 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit its output array holds what the pipeline leaves and its input arrays what they held at entry, -/
theorem hF3 (c : Dev nD) (w : Fin cfg3.W) : (pdats m 3 c).arrAt w cfg3.N = Gen.V9 m (outs m) c (Pipeline.arrRef spec3 w) := by
  match w with
  | ⟨0, _⟩ =>
    refine ((pdats m 3 c).arrAt_in 0 rfl _).trans ?_
    exact (Vof3 m c main_v58 (by decide)).symm
  | ⟨1, _⟩ =>
    refine ((pdats m 3 c).arrAt_in 1 rfl _).trans ?_
    exact (Vof3 m c main_v59 (by decide)).symm
  | ⟨2, _⟩ =>
    have h : Gen.V9 m (outs m) c (Proc.devRef .tc main_v60) = outs m 9 main_v60 c := Function.update_self ..
    exact (h.trans (outs_60 m 9 c)).symm
/-- and every other buffer what it held at entry. -/
theorem hrest3 (c : Dev nD) : ∀ b, b ∉ Finset.univ.image (Pipeline.arrRef spec3) → Gen.V9 m (outs m) c b = Gen.V8 m (outsC m) c b :=
  fun b hb => Vof3 m c b fun hmem => hb (Finset.mem_image.mpr ⟨2, Finset.mem_univ _, (List.mem_singleton.mp hmem).symm⟩)

set_option backward.isDefEq.respectTransparency.types false in
/-- Region 3 as a segment: entered from every unscoped buffer at the contents before it, left with its output array
    replaced by what its blocks' write-backs leave. Its arrays are split out of the unscoped buffers at entry and put
    back at exit; the generator register goes into the pipeline's invariant and comes back; nothing is owed; the kernel
    has no semaphore of its own. -/
def reg3 : RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (fun c b => Gen.V8 m (outsC m) c b) c).loose
  hwaits := Pipeline.hwaits_of_owed_zero _ _ _ _ Lz lvz 3 fun _ _ => rfl
  pre c := iprop(StableHlo.held (c : Thread nD τ) (Pipeline.ucRefs τ sig) (Gen.V8 m (outsC m) c) ∗ Rst c)
  post c := iprop(StableHlo.held (c : Thread nD τ) (Pipeline.ucRefs τ sig) (Gen.V9 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (fun b => Gen.V8 m (outsC m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => Gen.V8 m (outsC m) c b) fun w => A_eq3 (fun c b => Gen.V8 m (outsC m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (fun c b => Gen.V8 m (outsC m) c b) c).Φ 0 from rfl]
    iintro ⟨Hp, -, Hr⟩
    iapply (hin3 (fun c b => Gen.V8 m (outsC m) c b) c)
    isplitl [Hp]; · iexact Hp
    iexact Hr
  hout c := by
    rw [Pipeline.ownSems0_none, show (pdats m 3 c).Φ (Fin.last _) = (dat3 (fun c b => Gen.V8 m (outsC m) c b) c).Φ (Fin.last cfg3.N) from rfl]
    iintro H
    ihave H' := (hout3 (fun c b => Gen.V8 m (outsC m) c b) c) $$ H
    icases H' with ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V8 m (outsC m) c b) (fun b => Gen.V9 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates without a fault; the result
    buffer ends at the last valuation's contents — the final reshape of what region 3 leaves — and every argument array
    ends as launched. At any float instance. -/
theorem run : θ_run defs (onTc (τ := τ) (main (F := F))) ⟨m, fun _ => 0, ρ⟩ (fun r => ∀ c : Dev nD,
      r.2.mem ((c.tc : Thread nD τ).loc main_v61) = Gen.V10 m (outs m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond (F := F) m (Ix := Unit) (U := UR sig nD τ) (Lvl := ℕ) (EP := emb₁) (ι := ()) (𝒱₀ := Variants.none) (L := Lz) (lv := lvz)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE4 := fun c => by iintro ⟨-, H⟩; iexact H)
    (R0 := reg0 m) (hpre0 := fun c => .rfl) (hpost0 := fun c => .rfl)
    (R1 := reg1 m) (hpre1 := fun c => by rw [V5_outs m c]; exact .rfl) (hpost1 := fun c => .rfl)
    (R2 := reg2 m) (hpre2 := fun c => by rw [V6_outs m c]; exact .rfl) (hpost2 := fun c => .rfl)
    (R3 := reg3 m) (hpre3 := fun c => by rw [V8_outs m c]; exact .rfl) (hpost3 := fun c => .rfl)

end Cert.KernelIdeal.Hand

end
-- ==== Proof.KI.Val0.lean ====
import proofs.«153701_j33655363732257_1_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 0's output array after the run, at the ideal values: the product of its two input arrays -/

/-- The zero offsets of a whole-block access. -/
theorem offs_zero : (![0, 0] : Fin 2 → Nat) = fun _ => 0 := funext fun a => by fin_cases a <;> rfl

section AnyF
variable {F : FTy → Type} [FloatOps F] [Named F]

/-- The one whole-block store leaves its payload, of the whole input blocks. -/
theorem out0_2_eq (x0 : Vec F S5000x4 .f32) (x1 : Vec F S4x64 .f32) : out0_2 x0 x1 = k0_pay1 x0 x1 := by
  unfold out0_2
  rw [View.canon_unit_zero offs_zero]
  simp only [View.ld_unit_zero (S := S5000x4) offs_zero, View.ld_unit_zero (S := S4x64) offs_zero]
end AnyF

/-- The payload at the ideal values, at row `r` and column `q`: rounding to bf16 is the identity and the product
    into the zero accumulator is the sum over the contracted coordinate. -/
theorem pay0_apply (x0 : Vec Ideal S5000x4 .f32) (x1 : Vec Ideal S4x64 .f32) (r : Fin 5000) (q : Fin 64) :
    k0_pay1 (F := Ideal) x0 x1 (ix2 r q) = ∑ k : Fin 4, (x0 (ix2 r k) : EReal) * (x1 (ix2 k q) : EReal) := by
  unfold k0_pay1
  refine (Ideal.matmul_constant_zero_apply dot_S5000x4_S4x64_S5000x64_1_0_0_1_n_n none _ _ (ix2 r q)).trans ?_
  rw [← Equiv.sum_comp (contrEquiv1 dot_S5000x4_S4x64_S5000x64_1_0_0_1_n_n 4 rfl rfl).symm]
  refine Finset.sum_congr rfl fun k _ => ?_
  have c2 := contrEquiv1_symm_val dot_S5000x4_S4x64_S5000x64_1_0_0_1_n_n 4 rfl rfl k
  have l2 : dot_S5000x4_S4x64_S5000x64_1_0_0_1_n_n.lhsIdx (ix2 r q) ((contrEquiv1 _ 4 rfl rfl).symm k) = ix2 r k := by
    funext ax; apply Fin.ext
    match ax with
    | ⟨0, _⟩ => simp [DotDims.lhsIdx, dot_S5000x4_S4x64_S5000x64_1_0_0_1_n_n]; rfl
    | ⟨1, _⟩ => simp [DotDims.lhsIdx, dot_S5000x4_S4x64_S5000x64_1_0_0_1_n_n]; exact c2
  have r2 : dot_S5000x4_S4x64_S5000x64_1_0_0_1_n_n.rhsIdx (ix2 r q) ((contrEquiv1 _ 4 rfl rfl).symm k) = ix2 k q := by
    funext ax; apply Fin.ext
    match ax with
    | ⟨0, _⟩ => simp [DotDims.rhsIdx, dot_S5000x4_S4x64_S5000x64_1_0_0_1_n_n]; exact c2
    | ⟨1, _⟩ => simp [DotDims.rhsIdx, dot_S5000x4_S4x64_S5000x64_1_0_0_1_n_n]; rfl
  rw [l2, r2]
  rfl

/-- The same at any index of the block. -/
theorem pay0_block (x0 : Vec Ideal S5000x4 .f32) (x1 : Vec Ideal S4x64 .f32) (y : S5000x64.Idx) :
    k0_pay1 (F := Ideal) x0 x1 y
      = ∑ k : Fin 4, (x0 (ix2 (n0 := 5000) (n1 := 4) (y 0) k) : EReal) * (x1 (ix2 (n0 := 4) (n1 := 64) k (y 1)) : EReal) :=
  (congrArg (k0_pay1 (F := Ideal) x0 x1) (eq_ix2 y)).trans (pay0_apply x0 x1 (y 0) (y 1))

/-- The product of a [100000,4] array by a [4,64] array, entry by entry. -/
def prod0 (a0 : S100000x4.Idx → EReal) (a1 : S4x64.Idx → EReal) : S100000x64.Idx → EReal :=
  fun i => ∑ k : Fin 4, a0 (ix2 (n0 := 100000) (n1 := 4) (i 0) k) * a1 (ix2 (n0 := 4) (n1 := 64) k (i 1))

variable (V : (c : Dev nD) → (b : Ref sig .tc) → Buf (Elt Ideal) ((c : Thread nD τ).loc b))

/-- The region's two input arrays as it finds them, as functions to the extended reals. -/
abbrev in0_0 (c : Dev nD) : S100000x4.Idx → EReal := V c main_arg0
abbrev in0_1 (c : Dev nD) : S4x64.Idx → EReal := V c main_arg2

/-- The printed index maps over the grid: at point `t` windows 0 and 2 are on row block `t`, window 1 on its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two input arrays as the region finds them. -/
theorem flushed0_eq (c : Dev nD) (t : Fin cfg0.N) :
    (dat0 (F := Ideal) V c).flushed 2 t
      = ((cfg0.win 2).blk t).view.read (Elt Ideal) (prod0 (in0_0 V c) (in0_1 V c)) := by
  show (cfg0.win 2).cut (grid0.coords t) ((dat0 V c).after 2 t) = _
  rw [after0_2, out0_2_eq]
  obtain ⟨e0, e1, e2, e3, e4, e5⟩ := idx_facts0 t
  funext j
  refine (pay0_block _ _ j).trans ?_
  show ∑ k : Fin 4, in0_0 V c (((cfg0.win 0).blk t).view.emb (ix2 (n0 := 5000) (n1 := 4) (j 0) k))
        * in0_1 V c (((cfg0.win 1).blk t).view.emb (ix2 (n0 := 4) (n1 := 64) k (j 1)))
      = ∑ k : Fin 4, in0_0 V c (ix2 (n0 := 100000) (n1 := 4) ((((cfg0.win 2).blk t).view.emb j) 0) k)
        * in0_1 V c (ix2 (n0 := 4) (n1 := 64) k ((((cfg0.win 2).blk t).view.emb j) 1))
  refine Finset.sum_congr rfl fun k _ => ?_
  have h0 : ((cfg0.win 0).blk t).view.emb (ix2 (n0 := 5000) (n1 := 4) (j 0) k)
      = ix2 (n0 := 100000) (n1 := 4) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 4 + 1 * k.val = k.val; rw [e1]; omega
  have h1 : ((cfg0.win 1).blk t).view.emb (ix2 (n0 := 4) (n1 := 64) k (j 1))
      = ix2 (n0 := 4) (n1 := 64) k ((((cfg0.win 2).blk t).view.emb j) 1) := by
    funext a; apply Fin.ext
    match a with
    | ⟨0, _⟩ => show win0_1.index t (0 : Fin 2) * 4 + 1 * k.val = k.val; rw [e2]; omega
    | ⟨1, _⟩ => show win0_1.index t (1 : Fin 2) * 64 + 1 * (j 1).val = win0_2.index t (1 : Fin 2) * 64 + 1 * (j 1).val; rw [e3, e5]
  rw [h0, h1]

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Every index of the array is in the block of the point its row falls in. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 64 ≤ (i 1).val ∧ (i 1).val < win0_2.index _ (1 : Fin 2) * 64 + 64; rw [e5]; omega

/-- The output array after the run is the product of the two input arrays as the region finds them. -/
theorem final0 (c : Dev nD) : (dat0 (F := Ideal) V c).arrAt 2 cfg0.N = prod0 (in0_0 V c) (in0_1 V c) :=
  (dat0 V c).arrAt_eq_of_cover 2 (prod0 (in0_0 V c) (in0_1 V c)) (fun t _ => flushed0_eq V c t) cover0

end Cert.KernelIdeal.Hand
end
-- ==== Proof.KI.Val1.lean ====
import proofs.«153701_j33655363732257_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 1's output array after the run, at the ideal values: its first input plus the one row, cut off below at zero -/

/-- The zero offsets of a whole-block access. -/
theorem offs_zero1 : (![0, 0] : Fin 2 → Nat) = fun _ => 0 := funext fun a => by fin_cases a <;> rfl

section AnyF
variable {F : FTy → Type} [FloatOps F] [Named F]

/-- The one whole-block store leaves its payload, of the whole input blocks. -/
theorem out1_2_eq (x0 : Vec F S5000x64 .f32) (x1 : Vec F S1x64 .f32) : out1_2 x0 x1 = k1_pay1 x0 x1 := by
  unfold out1_2
  rw [View.canon_unit_zero offs_zero1]
  simp only [View.ld_unit_zero (S := S5000x64) offs_zero1, View.ld_unit_zero (S := S1x64) offs_zero1]
end AnyF

/-- The payload at the ideal values, at row `r` and column `q`: the block's entry plus the one row's entry in that
    column, or zero if that is larger. -/
theorem pay1_apply (x0 : Vec Ideal S5000x64 .f32) (x1 : Vec Ideal S1x64 .f32) (r : Fin 5000) (q : Fin 64) :
    k1_pay1 (F := Ideal) x0 x1 (ix2 r q) = max ((x0 (ix2 r q) : EReal) + (x1 (ix2 (0 : Fin 1) q) : EReal)) 0 := by
  unfold k1_pay1
  refine (maximumf_apply _ _ (ix2 r q)).trans ?_
  refine congrArg₂ max ?_ ?_
  · refine (addf_apply _ _ (ix2 r q)).trans ?_
    refine congrArg₂ (· + ·) ?_ ?_
    · exact congrFun (shapeCast_self x0 _) _
    · refine (broadcastTo_1b_ab_apply _ _ r q).trans ?_
      exact congrFun (shapeCast_self x1 _) _
  · exact Ideal.ofBits_zero_f32

/-- The same at any index of the block. -/
theorem pay1_block (x0 : Vec Ideal S5000x64 .f32) (x1 : Vec Ideal S1x64 .f32) (y : S5000x64.Idx) :
    k1_pay1 (F := Ideal) x0 x1 y = max ((x0 y : EReal) + (x1 (ix2 (n0 := 1) (n1 := 64) (0 : Fin 1) (y 1)) : EReal)) 0 :=
  (congrArg (k1_pay1 (F := Ideal) x0 x1) (eq_ix2 y)).trans ((pay1_apply x0 x1 (y 0) (y 1)).trans
    (congrArg (fun z => max ((x0 z : EReal) + (x1 (ix2 (n0 := 1) (n1 := 64) (0 : Fin 1) (y 1)) : EReal)) 0) (eq_ix2 y).symm))

/-- A [100000,64] array plus a [1,64] row down its rows, cut off below at zero, entry by entry. -/
def biasRelu1 (a0 : S100000x64.Idx → EReal) (a1 : S1x64.Idx → EReal) : S100000x64.Idx → EReal :=
  fun i => max (a0 i + a1 (ix2 (n0 := 1) (n1 := 64) (0 : Fin 1) (i 1))) 0

variable (V : (c : Dev nD) → (b : Ref sig .tc) → Buf (Elt Ideal) ((c : Thread nD τ).loc b))

/-- The region's two input arrays as it finds them, as functions to the extended reals. -/
abbrev in1_0 (c : Dev nD) : S100000x64.Idx → EReal := V c main_v43
abbrev in1_1 (c : Dev nD) : S1x64.Idx → EReal := V c main_v44

/-- The printed index maps over the grid: at point `t` windows 0 and 2 are on row block `t`, window 1 on its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu1` of the two input arrays as the region finds them. -/
theorem flushed1_eq (c : Dev nD) (t : Fin cfg1.N) :
    (dat1 (F := Ideal) V c).flushed 2 t
      = ((cfg1.win 2).blk t).view.read (Elt Ideal) (biasRelu1 (in1_0 V c) (in1_1 V c)) := by
  show (cfg1.win 2).cut (grid1.coords t) ((dat1 V c).after 2 t) = _
  rw [after1_2, out1_2_eq]
  obtain ⟨e0, e1, e2, e3, e4, e5⟩ := idx_facts1 t
  funext j
  refine (pay1_block _ _ j).trans ?_
  show max (in1_0 V c (((cfg1.win 0).blk t).view.emb j)
        + in1_1 V c (((cfg1.win 1).blk t).view.emb (ix2 (n0 := 1) (n1 := 64) (0 : Fin 1) (j 1)))) 0
      = max (in1_0 V c (((cfg1.win 2).blk t).view.emb j)
        + in1_1 V c (ix2 (n0 := 1) (n1 := 64) (0 : Fin 1) ((((cfg1.win 2).blk t).view.emb j) 1))) 0
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 64 + 1 * (j 1).val = win1_2.index t (1 : Fin 2) * 64 + 1 * (j 1).val; rw [e1, e5]
  have h1 : ((cfg1.win 1).blk t).view.emb (ix2 (n0 := 1) (n1 := 64) (0 : Fin 1) (j 1))
      = ix2 (n0 := 1) (n1 := 64) (0 : Fin 1) ((((cfg1.win 2).blk t).view.emb j) 1) := by
    funext a; apply Fin.ext
    match a with
    | ⟨0, _⟩ => show win1_1.index t (0 : Fin 2) * 1 + 1 * (0 : Fin 1).val = (0 : Fin 1).val; rw [e2]; omega
    | ⟨1, _⟩ => show win1_1.index t (1 : Fin 2) * 64 + 1 * (j 1).val = win1_2.index t (1 : Fin 2) * 64 + 1 * (j 1).val; rw [e3, e5]
  rw [h0, h1]

/-- An index of the array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every index of the array is in the block of the point its row falls in. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk1]
  obtain ⟨-, -, -, -, e4, e5⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; dsimp only; omega
  | ⟨1, _⟩ => show win1_2.index _ (1 : Fin 2) * 64 ≤ (i 1).val ∧ (i 1).val < win1_2.index _ (1 : Fin 2) * 64 + 64; rw [e5]; omega

/-- The output array after the run is `biasRelu1` of the two input arrays as the region finds them. -/
theorem final1 (c : Dev nD) : (dat1 (F := Ideal) V c).arrAt 2 cfg1.N = biasRelu1 (in1_0 V c) (in1_1 V c) :=
  (dat1 V c).arrAt_eq_of_cover 2 (biasRelu1 (in1_0 V c) (in1_1 V c)) (fun t _ => flushed1_eq V c t) cover1

end Cert.KernelIdeal.Hand
end
-- ==== Proof.KI.Val2.lean ====
import proofs.«153701_j33655363732257_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 2's output array after the run, at the ideal values: the product of its two input arrays -/

/-- The zero offsets of a whole-block access. -/
theorem offs_zero2 : (![0, 0] : Fin 2 → Nat) = fun _ => 0 := funext fun a => by fin_cases a <;> rfl

section AnyF
variable {F : FTy → Type} [FloatOps F] [Named F]

/-- The one whole-block store leaves its payload, of the whole input blocks. -/
theorem out2_2_eq (x0 : Vec F S5000x64 .f32) (x1 : Vec F S64x32 .f32) : out2_2 x0 x1 = k2_pay1 x0 x1 := by
  unfold out2_2
  rw [View.canon_unit_zero offs_zero2]
  simp only [View.ld_unit_zero (S := S5000x64) offs_zero2, View.ld_unit_zero (S := S64x32) offs_zero2]
end AnyF

/-- The payload at the ideal values, at row `r` and column `q`: rounding to bf16 is the identity and the product
    into the zero accumulator is the sum over the contracted coordinate. -/
theorem pay2_apply (x0 : Vec Ideal S5000x64 .f32) (x1 : Vec Ideal S64x32 .f32) (r : Fin 5000) (q : Fin 32) :
    k2_pay1 (F := Ideal) x0 x1 (ix2 r q) = ∑ k : Fin 64, (x0 (ix2 r k) : EReal) * (x1 (ix2 k q) : EReal) := by
  unfold k2_pay1
  refine (Ideal.matmul_constant_zero_apply dot_S5000x64_S64x32_S5000x32_1_0_0_1_n_n none _ _ (ix2 r q)).trans ?_
  rw [← Equiv.sum_comp (contrEquiv1 dot_S5000x64_S64x32_S5000x32_1_0_0_1_n_n 64 rfl rfl).symm]
  refine Finset.sum_congr rfl fun k _ => ?_
  have c2 := contrEquiv1_symm_val dot_S5000x64_S64x32_S5000x32_1_0_0_1_n_n 64 rfl rfl k
  have l2 : dot_S5000x64_S64x32_S5000x32_1_0_0_1_n_n.lhsIdx (ix2 r q) ((contrEquiv1 _ 64 rfl rfl).symm k) = ix2 r k := by
    funext ax; apply Fin.ext
    match ax with
    | ⟨0, _⟩ => simp [DotDims.lhsIdx, dot_S5000x64_S64x32_S5000x32_1_0_0_1_n_n]; rfl
    | ⟨1, _⟩ => simp [DotDims.lhsIdx, dot_S5000x64_S64x32_S5000x32_1_0_0_1_n_n]; exact c2
  have r2 : dot_S5000x64_S64x32_S5000x32_1_0_0_1_n_n.rhsIdx (ix2 r q) ((contrEquiv1 _ 64 rfl rfl).symm k) = ix2 k q := by
    funext ax; apply Fin.ext
    match ax with
    | ⟨0, _⟩ => simp [DotDims.rhsIdx, dot_S5000x64_S64x32_S5000x32_1_0_0_1_n_n]; exact c2
    | ⟨1, _⟩ => simp [DotDims.rhsIdx, dot_S5000x64_S64x32_S5000x32_1_0_0_1_n_n]; rfl
  rw [l2, r2]
  exact congrArg (· * (x1 (ix2 k q) : EReal)) (congrFun (shapeCast_self x0 _) (ix2 r k))

/-- The same at any index of the block. -/
theorem pay2_block (x0 : Vec Ideal S5000x64 .f32) (x1 : Vec Ideal S64x32 .f32) (y : S5000x32.Idx) :
    k2_pay1 (F := Ideal) x0 x1 y
      = ∑ k : Fin 64, (x0 (ix2 (n0 := 5000) (n1 := 64) (y 0) k) : EReal) * (x1 (ix2 (n0 := 64) (n1 := 32) k (y 1)) : EReal) :=
  (congrArg (k2_pay1 (F := Ideal) x0 x1) (eq_ix2 y)).trans (pay2_apply x0 x1 (y 0) (y 1))

/-- The product of a [100000,64] array by a [64,32] array, entry by entry. -/
def prod2 (a0 : S100000x64.Idx → EReal) (a1 : S64x32.Idx → EReal) : S100000x32.Idx → EReal :=
  fun i => ∑ k : Fin 64, a0 (ix2 (n0 := 100000) (n1 := 64) (i 0) k) * a1 (ix2 (n0 := 64) (n1 := 32) k (i 1))

variable (V : (c : Dev nD) → (b : Ref sig .tc) → Buf (Elt Ideal) ((c : Thread nD τ).loc b))

/-- The region's two input arrays as it finds them, as functions to the extended reals. -/
abbrev in2_0 (c : Dev nD) : S100000x64.Idx → EReal := V c main_v45
abbrev in2_1 (c : Dev nD) : S64x32.Idx → EReal := V c main_arg4

/-- The printed index maps over the grid: at point `t` windows 0 and 2 are on row block `t`, window 1 on its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two input arrays as the region finds them. -/
theorem flushed2_eq (c : Dev nD) (t : Fin cfg2.N) :
    (dat2 (F := Ideal) V c).flushed 2 t
      = ((cfg2.win 2).blk t).view.read (Elt Ideal) (prod2 (in2_0 V c) (in2_1 V c)) := by
  show (cfg2.win 2).cut (grid2.coords t) ((dat2 V c).after 2 t) = _
  rw [after2_2, out2_2_eq]
  obtain ⟨e0, e1, e2, e3, e4, e5⟩ := idx_facts2 t
  funext j
  refine (pay2_block _ _ j).trans ?_
  show ∑ k : Fin 64, in2_0 V c (((cfg2.win 0).blk t).view.emb (ix2 (n0 := 5000) (n1 := 64) (j 0) k))
        * in2_1 V c (((cfg2.win 1).blk t).view.emb (ix2 (n0 := 64) (n1 := 32) k (j 1)))
      = ∑ k : Fin 64, in2_0 V c (ix2 (n0 := 100000) (n1 := 64) ((((cfg2.win 2).blk t).view.emb j) 0) k)
        * in2_1 V c (ix2 (n0 := 64) (n1 := 32) k ((((cfg2.win 2).blk t).view.emb j) 1))
  refine Finset.sum_congr rfl fun k _ => ?_
  have h0 : ((cfg2.win 0).blk t).view.emb (ix2 (n0 := 5000) (n1 := 64) (j 0) k)
      = ix2 (n0 := 100000) (n1 := 64) ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; rw [e0, e4]
    | ⟨1, _⟩ => show win2_0.index t (1 : Fin 2) * 64 + 1 * k.val = k.val; rw [e1]; omega
  have h1 : ((cfg2.win 1).blk t).view.emb (ix2 (n0 := 64) (n1 := 32) k (j 1))
      = ix2 (n0 := 64) (n1 := 32) k ((((cfg2.win 2).blk t).view.emb j) 1) := by
    funext a; apply Fin.ext
    match a with
    | ⟨0, _⟩ => show win2_1.index t (0 : Fin 2) * 64 + 1 * k.val = k.val; rw [e2]; omega
    | ⟨1, _⟩ => show win2_1.index t (1 : Fin 2) * 32 + 1 * (j 1).val = win2_2.index t (1 : Fin 2) * 32 + 1 * (j 1).val; rw [e3, e5]
  rw [h0, h1]

/-- An index of the array is in point `t`'s block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v46).slice (win2_2.rect t)).set ↔ _
  rw [View.set_slice_whole, Rect.mem_set_unit]
  exact Iff.rfl

/-- Every index of the array is in the block of the point its row falls in. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_2 _, ?_⟩
  rw [mem_blk2]
  obtain ⟨-, -, -, -, e4, e5⟩ := idx_facts2 ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; dsimp only; omega
  | ⟨1, _⟩ => show win2_2.index _ (1 : Fin 2) * 32 ≤ (i 1).val ∧ (i 1).val < win2_2.index _ (1 : Fin 2) * 32 + 32; rw [e5]; omega

/-- The output array after the run is the product of the two input arrays as the region finds them. -/
theorem final2 (c : Dev nD) : (dat2 (F := Ideal) V c).arrAt 2 cfg2.N = prod2 (in2_0 V c) (in2_1 V c) :=
  (dat2 V c).arrAt_eq_of_cover 2 (prod2 (in2_0 V c) (in2_1 V c)) (fun t _ => flushed2_eq V c t) cover2

end Cert.KernelIdeal.Hand
end
-- ==== Proof.KI.Reg3Value.lean ====
import proofs.«153701_j33655363732257_1_alg».proof.Proof.Gen.KernelIdeal.Launch
import proofs.«153701_j33655363732257_1_alg».proof.Proof.Gen.KernelIdeal.Skeleton
import proofs.«153701_j33655363732257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«153701_j33655363732257_1_alg».proof.Proof.KI.Reg3
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

variable (V : (c : Dev nD) → (b : Ref sig .tc) → Buf (Elt F) ((c : Thread nD τ).loc b))

/-- The last point of the grid. -/
abbrev t3_19 : Fin cfg3.N := ⟨19, by decide⟩

/-- What the body leaves in the output window's buffer at the last point: the mean row, from the accumulator after
    all twenty points and window 1's block (the bias row). -/
theorem after3_2_last (c : Dev nD) :
    (dat3 V c).after 2 t3_19 = k3_pay3 (acc3 V c 20) (iblk3 V c 1 t3_19) := after3_2 V c t3_19

/-- The result: the mean row after the last point, as contents of the result array (its one block is the array). -/
abbrev result3 (c : Dev nD) : Buf (Elt F) ((c : Thread nD τ).loc main_v60) :=
  k3_pay3 (acc3 V c 20) (iblk3 V c 1 t3_19)

/-- The one write-back, at the last point, writes it: block (0, 0) of the [1,32] array read through zero offsets is the array. -/
theorem flushed3_eq (c : Dev nD) (t : Fin cfg3.N) (hf : (cfg3.win 2).flush t = true) :
    (dat3 V c).flushed 2 t = ((cfg3.win 2).blk t).view.read (Elt F) (result3 V c) := by
  have hN : cfg3.N = 20 := N_3
  have h19 : t.val = 19 := by have := (flush3_2 t).mp hf; have := t.isLt; omega
  obtain rfl : t = t3_19 := Fin.ext h19
  show (cfg3.win 2).cut (grid3.coords t3_19) ((dat3 V c).after 2 t3_19) = _
  rw [after3_2_last]
  have hz' : (fun a => win3_2.index t3_19 a * main_v60.ty.shape.size a) = fun _ => 0 := funext fun a => by fin_cases a <;> decide
  exact (Memref.read_access_unit_zero (Elt F) main_v60 hz' (fun a => by rw [congrFun hz' a]; simp) (result3 V c)).symm

/-- So the result array ends holding the mean row (the last point's block covers it). -/
theorem final3_2 (c : Dev nD) : (dat3 V c).arrAt 2 cfg3.N = result3 V c :=
  (dat3 V c).arrAt_eq_of_cover 2 (result3 V c) (flushed3_eq V c) fun i =>
    ⟨t3_19, (flush3_2 t3_19).mpr rfl, by
      show i ∈ ((View.whole main_v60).slice (win3_2.rect t3_19)).set
      rw [View.set_slice_whole, Rect.mem_set_unit]
      intro a
      have h0 : (i 0 : Nat) < 1 := (i 0).isLt
      have h1 : (i 1 : Nat) < 32 := (i 1).isLt
      match a with
      | ⟨0, _⟩ => show win3_2.index t3_19 0 * win3_2.size 0 ≤ (i 0 : Nat) ∧ (i 0 : Nat) < win3_2.index t3_19 0 * win3_2.size 0 + win3_2.xsize (grid3.coords t3_19) 0
                  rw [show win3_2.index t3_19 0 * win3_2.size 0 = 0 from by decide +kernel, show win3_2.xsize (grid3.coords t3_19) 0 = 1 from by decide +kernel]; omega
      | ⟨1, _⟩ => show win3_2.index t3_19 1 * win3_2.size 1 ≤ (i 1 : Nat) ∧ (i 1 : Nat) < win3_2.index t3_19 1 * win3_2.size 1 + win3_2.xsize (grid3.coords t3_19) 1
                  rw [show win3_2.index t3_19 1 * win3_2.size 1 = 0 from by decide +kernel, show win3_2.xsize (grid3.coords t3_19) 1 = 32 from by decide +kernel]; omega⟩

/-- Window 1's block at any point is its whole [1,32] array: its block index is constant (0, 0). -/
theorem iblk3_1_eq (c : Dev nD) (t : Fin cfg3.N) :
    (iblk3 V c 1 t : Vec F S1x32 .f32) = V c main_v59 := by
  have hz' : (fun a => win3_1.index t a * main_v59.ty.shape.size a) = fun _ => 0 := funext fun a => by fin_cases a <;> rfl
  exact Memref.read_access_unit_zero (Elt F) main_v59 hz' (fun a => by rw [congrFun hz' a]; simp) (V c main_v59)

/-- The result array after the region, in closed form over the region-entry contents: the accumulator after the twenty
    points scaled and shifted by window 1's array. -/
theorem final3_2' (c : Dev nD) :
    (dat3 V c).arrAt 2 cfg3.N = (k3_pay3 (acc3 V c 20) (V c main_v59) : Vec F S1x32 .f32) := by
  rw [final3_2]; unfold result3; rw [iblk3_1_eq]

end Cert.KernelIdeal.Hand
end
-- ==== Proof.KI.Val3.lean ====
import proofs.«153701_j33655363732257_1_alg».proof.Proof.KI.Reg3Value
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # Region 3's output array after the run, at the ideal values: the column means of its first input plus its second -/

/-! ## The three payloads at an index -/

/-- The reset row is zero at every index. -/
theorem pay3_1_apply (y : S1x32.Idx) : (k3_pay1 (F := Ideal) y : EReal) = 0 := by
  unfold k3_pay1
  rw [shapeCast_self]
  exact Ideal.ofBits_zero_f32

/-- The reduced index `j` with row `k` put back is (k, j). -/
theorem lift3 (h : S5000x32.Reduces [0] S32) (j : Fin 32) (k : Fin (S5000x32.size 0)) :
    h.lift (ix1 j) k = ix2 (⟨k.val, k.isLt⟩ : Fin 5000) j := by
  funext c; apply Fin.ext
  fin_cases c <;> rfl

/-- The sum along the rows of a [5000,32] block, at column `j`. -/
theorem colsum3 (src : FVec Ideal S5000x32 .f32) (h : S5000x32.Reduces [0] S32) (hφ : FKind.Formats .f32)
    (hacc : (0x00000000#32 : BitVec 32) = 0x00000000#32) (j : Fin 32) :
    multiReduction (F := Ideal) .add [0] S32 src 0x00000000#32 h hφ hacc (ix1 j) = ∑ l : Fin 5000, src (ix2 l j) := by
  refine (Ideal.multiReduction_add_single src 0x00000000#32 h hφ hacc (ix1 j)).trans ?_
  exact Finset.sum_congr rfl fun l _ => congrArg src (lift3 h j l)

/-- The accumulation at column `j`: the accumulator there plus the block's column sum. -/
theorem pay3_2_apply (acc : Vec Ideal S1x32 .f32) (blk : Vec Ideal S5000x32 .f32) (j : Fin 32) :
    (k3_pay2 (F := Ideal) acc blk (ix2 (n0 := 1) (n1 := 32) 0 j) : EReal)
      = (acc (ix2 (n0 := 1) (n1 := 32) 0 j) : EReal) + ∑ l : Fin 5000, (blk (ix2 (n0 := 5000) (n1 := 32) l j) : EReal) := by
  unfold k3_pay2
  rw [shapeCast_self, shapeCast_self, addf_apply, shapeCast_a_1a_apply]
  exact congrArg (fun x => (acc (ix2 (n0 := 1) (n1 := 32) 0 j) : EReal) + x) (colsum3 blk _ _ _ j)

/-- The certificate's table gives the named reciprocal the rational 1/100000. -/
theorem inv_100000 : Named.named (F := Ideal) κ "inv_100000" (φ := .f32) 0x3727C5AC#32 = ((1 / 100000 : ℝ) : EReal) :=
  IdealRules.named_const.ideal_named_scalar _ _ _ _ rfl

/-- The last point's output at column `j`: the accumulator scaled by the reciprocal, plus the bias. -/
theorem pay3_3_apply (acc b : Vec Ideal S1x32 .f32) (j : Fin 32) :
    (k3_pay3 (F := Ideal) acc b (ix2 (n0 := 1) (n1 := 32) 0 j) : EReal)
      = (acc (ix2 (n0 := 1) (n1 := 32) 0 j) : EReal) * ((1 / 100000 : ℝ) : EReal) + (b (ix2 (n0 := 1) (n1 := 32) 0 j) : EReal) := by
  unfold k3_pay3
  rw [shapeCast_self, addf_apply, mulf_apply, broadcast_apply, inv_100000]

variable (V : (c : Dev nD) → (b : Ref sig .tc) → Buf (Elt Ideal) ((c : Thread nD τ).loc b))

/-- The region's two input arrays as it finds them, as functions to the extended reals. -/
abbrev in3_0 (c : Dev nD) : S100000x32.Idx → EReal := V c main_v58
abbrev in3_1 (c : Dev nD) : S1x32.Idx → EReal := V c main_v59

/-- The printed index map of window 0 over the grid: at point `t` it is on row block `t`. -/
theorem idx_facts3 : ∀ t : Fin cfg3.N, win3_0.index t (0 : Fin 2) = t.val ∧ win3_0.index t (1 : Fin 2) = 0 :=
  (by decide +kernel : ∀ t : Fin grid3.N, _)

/-- Window 0's block at point `t`, at row `l` and column `j`, is the array at row `5000 t + l`. -/
theorem iblk3_0_apply (c : Dev nD) (t : Fin cfg3.N) (l : Fin 5000) (j : Fin 32) (h : 5000 * t.val + l.val < 100000) :
    (iblk3 (F := Ideal) V c 0 t : S5000x32.Idx → EReal) (ix2 (n0 := 5000) (n1 := 32) l j)
      = in3_0 V c (ix2 (n0 := 100000) (n1 := 32) ⟨5000 * t.val + l.val, h⟩ j) := by
  obtain ⟨e0, e1⟩ := idx_facts3 t
  show in3_0 V c (((cfg3.win 0).blk t).view.emb (ix2 (n0 := 5000) (n1 := 32) l j)) = _
  refine congrArg (in3_0 V c) ?_
  funext a; apply Fin.ext
  match a with
  | ⟨0, _⟩ => show win3_0.index t (0 : Fin 2) * 5000 + 1 * l.val = 5000 * t.val + l.val; rw [e0]; omega
  | ⟨1, _⟩ => show win3_0.index t (1 : Fin 2) * 32 + 1 * j.val = j.val; rw [e1]; omega

/-- Column `j` of the first input array by row number, zero past the array. -/
def col3 (c : Dev nD) (j : Fin 32) (r : ℕ) : EReal :=
  if h : r < 100000 then in3_0 V c (ix2 (n0 := 100000) (n1 := 32) ⟨r, h⟩ j) else 0

/-- The accumulator after the first `n` points, at column `j`, is the sum of the first `5000 n` rows of that column. -/
theorem acc3_apply (c : Dev nD) (j : Fin 32) : ∀ n : ℕ, n ≤ 20 →
    (acc3 (F := Ideal) V c n (ix2 (n0 := 1) (n1 := 32) 0 j) : EReal) = ∑ r ∈ Finset.range (5000 * n), col3 V c j r
  | 0, _ => by
    rw [acc3_zero, pay3_1_apply]; rfl
  | n + 1, hn => by
    have hN : cfg3.N = 20 := N_3
    have hlt : n < cfg3.N := by omega
    have ih := acc3_apply c j n (by omega)
    rw [show n + 1 = (⟨n, hlt⟩ : Fin cfg3.N).val + 1 from rfl, acc3_succ, pay3_2_apply]
    rw [show 5000 * ((⟨n, hlt⟩ : Fin cfg3.N).val + 1) = 5000 * n + 5000 from by dsimp only; omega, Finset.sum_range_add]
    rw [show (⟨n, hlt⟩ : Fin cfg3.N).val = n from rfl] at *
    rw [ih, ← Fin.sum_univ_eq_sum_range (fun l => col3 V c j (5000 * n + l)) 5000]
    refine congrArg (fun x => (∑ r ∈ Finset.range (5000 * n), col3 V c j r) + x) ?_
    refine Finset.sum_congr rfl fun l _ => ?_
    have hl : 5000 * n + l.val < 100000 := by have := l.isLt; omega
    rw [iblk3_0_apply V c ⟨n, hlt⟩ l j hl]
    unfold col3
    rw [dif_pos hl]

/-- THE VALUE of region 3's output array after the run, at column `j`: the sum of column `j` of the first input
    array over all its rows, times 1/100000, plus the second input array there. -/
theorem final3_apply (c : Dev nD) (j : Fin 32) :
    ((dat3 (F := Ideal) V c).arrAt 2 cfg3.N : S1x32.Idx → EReal) (ix2 (n0 := 1) (n1 := 32) 0 j)
      = (∑ r : Fin 100000, in3_0 V c (ix2 (n0 := 100000) (n1 := 32) r j)) * ((1 / 100000 : ℝ) : EReal)
        + in3_1 V c (ix2 (n0 := 1) (n1 := 32) 0 j) := by
  rw [final3_2', pay3_3_apply, acc3_apply V c j 20 (le_refl _)]
  refine congrArg (fun x => x * ((1 / 100000 : ℝ) : EReal) + in3_1 V c (ix2 (n0 := 1) (n1 := 32) 0 j)) ?_
  rw [show 5000 * 20 = 100000 from rfl, ← Fin.sum_univ_eq_sum_range (col3 V c j) 100000]
  refine Finset.sum_congr rfl fun r _ => ?_
  unfold col3
  rw [dif_pos r.isLt]

end Cert.KernelIdeal.Hand
end
-- ==== Proof.KI.Host.lean ====
import proofs.«153701_j33655363732257_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.StableHlo
open Idealize.SL.Sem

variable {F : FTy → Type} [FloatOps F] [Named F]

/-- One aggregation step of the graph convolution as the host computes it: the rows of `h` gathered at the (wrapped) source
    indices, scaled by the edge weights, and scatter-added from zero at the destination indices. -/
def agg64K (s5 s6 : (⟨S3300000, .i32⟩ : BufTy).Contents (Elt F)) (n30 : (⟨S3300000x1, .f32⟩ : BufTy).Contents (Elt F)) (h : (⟨S100000x64, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 s6)
    (mulf
      (Host.gather gather_S100000x64_S3300000x1_S3300000x64_1_0_n_n_0_1_164 h
        (broadcastInDim S3300000x1 ![0] bcast_S3300000_S3300000x1_0
          (select (cmpi .slt s5 (broadcastInDim S3300000 ![] bcast_S_S3300000 (constantI S_ 32 0#32)))
            (addi s5 (broadcastInDim S3300000 ![] bcast_S_S3300000 (constantI S_ 32 100000#32))) s5)))
      (broadcastInDim S3300000x64 ![0, 1] bcast_S3300000x1_S3300000x64_0_1 n30))

/-- One aggregation step of the graph convolution as the host computes it: the rows of `h` gathered at the (wrapped) source
    indices, scaled by the edge weights, and scatter-added from zero at the destination indices. -/
def agg32K (s5 s6 : (⟨S3300000, .i32⟩ : BufTy).Contents (Elt F)) (n30 : (⟨S3300000x1, .f32⟩ : BufTy).Contents (Elt F)) (h : (⟨S100000x32, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 s6)
    (mulf
      (Host.gather gather_S100000x32_S3300000x1_S3300000x32_1_0_n_n_0_1_132 h
        (broadcastInDim S3300000x1 ![0] bcast_S3300000_S3300000x1_0
          (select (cmpi .slt s5 (broadcastInDim S3300000 ![] bcast_S_S3300000 (constantI S_ 32 0#32)))
            (addi s5 (broadcastInDim S3300000 ![] bcast_S_S3300000 (constantI S_ 32 100000#32))) s5)))
      (broadcastInDim S3300000x32 ![0, 1] bcast_S3300000x1_S3300000x32_0_1 n30))

/-- The edge sources: row 0 of the edge array, then one self-loop per node. -/
def srcK (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The edge destinations: row 1 of the edge array, then one self-loop per node. -/
def dstK (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- The node degrees: ones scatter-added from zero at the destinations. -/
def degK (s6 : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 s6)
    (broadcastInDim S3300000 ![] bcast_S_S3300000 (constant S_ .f32 0x3F800000#32))

/-- The inverse square roots of the positive degrees, zero elsewhere. -/
def dinvK (s6 : (⟨S3300000, .i32⟩ : BufTy).Contents (Elt F)) : (⟨S100000, .f32⟩ : BufTy).Contents (Elt F) :=
  select (cmpf (F := F) .ogt (degK s6) (broadcastInDim S100000 ![] bcast_S_S100000 (constant S_ .f32 0x00000000#32))) (Host.rsqrt (degK s6))
    (broadcastInDim S100000 ![] bcast_S_S100000 (id (constant S_ .f32 0x00000000#32)))

/-- The edge weights from the per-node factors: the product of the factors at the two (wrapped) ends, as a column. -/
def normS (s5 s6 : (⟨S3300000, .i32⟩ : BufTy).Contents (Elt F)) (dinv : (⟨S100000, .f32⟩ : BufTy).Contents (Elt F)) : (⟨S3300000x1, .f32⟩ : BufTy).Contents (Elt F) :=
  broadcastInDim S3300000x1 ![0] bcast_S3300000_S3300000x1_0
    (mulf (Host.gather gather_S100000_S3300000x1_S3300000_n_0_n_n_0_1_1 dinv (broadcastInDim S3300000x1 ![0] bcast_S3300000_S3300000x1_0 (select (cmpi .slt s5 (broadcastInDim S3300000 ![] bcast_S_S3300000 (constantI S_ 32 0#32))) (addi s5 (broadcastInDim S3300000 ![] bcast_S_S3300000 (constantI S_ 32 100000#32))) s5)))
      (Host.gather gather_S100000_S3300000x1_S3300000_n_0_n_n_0_1_1 dinv (broadcastInDim S3300000x1 ![0] bcast_S3300000_S3300000x1_0 (select (cmpi .slt s6 (broadcastInDim S3300000 ![] bcast_S_S3300000 (constantI S_ 32 0#32))) (addi s6 (broadcastInDim S3300000 ![] bcast_S_S3300000 (constantI S_ 32 100000#32))) s6))))

/-- The edge weights of the edge array. -/
def normK (e : (⟨S2x3200000, .i32⟩ : BufTy).Contents (Elt F)) : (⟨S3300000x1, .f32⟩ : BufTy).Contents (Elt F) :=
  normS (srcK e) (dstK e) (dinvK (dstK e))

/-! ## Each host stretch read at a reference, over any valuation before it -/

set_option maxHeartbeats 8000000 in
theorem after1_43 (W : Valuation τ sig (Elt F)) :
    StableHlo.after hostOps1 W (Proc.devRef .tc main_v43) = agg64K (W main_v5) (W main_v6) (W main_v30) (W main_v31) := by
  delta hostOps1
  after_results_simp
  rfl

set_option maxHeartbeats 8000000 in
theorem after3_58 (W : Valuation τ sig (Elt F)) :
    StableHlo.after hostOps3 W (Proc.devRef .tc main_v58) = agg32K (W main_v5) (W main_v6) (W main_v30) (W main_v46) := by
  delta hostOps3
  after_results_simp
  rfl

set_option maxHeartbeats 8000000 in
theorem after0_5 (W : Valuation τ sig (Elt F)) :
    StableHlo.after hostOps0 W (Proc.devRef .tc main_v5) = srcK (W main_arg1) := by
  delta hostOps0
  after_results_simp
  rfl

set_option maxHeartbeats 8000000 in
theorem after0_6 (W : Valuation τ sig (Elt F)) :
    StableHlo.after hostOps0 W (Proc.devRef .tc main_v6) = dstK (W main_arg1) := by
  delta hostOps0
  after_results_simp
  rfl

set_option maxHeartbeats 8000000 in
theorem after0_12 (W : Valuation τ sig (Elt F)) :
    StableHlo.after hostOps0 W (Proc.devRef .tc main_v12)
      = cmpf (F := F) .ogt (degK (dstK (W main_arg1))) (broadcastInDim S100000 ![] bcast_S_S100000 (constant S_ .f32 0x00000000#32)) := by
  delta hostOps0
  after_results_simp
  rfl

set_option maxHeartbeats 8000000 in
theorem after0_13 (W : Valuation τ sig (Elt F)) :
    StableHlo.after hostOps0 W (Proc.devRef .tc main_v13) = Host.rsqrt (degK (dstK (W main_arg1))) := by
  delta hostOps0
  after_results_simp
  rfl

set_option maxHeartbeats 8000000 in
theorem after0_cst2 (W : Valuation τ sig (Elt F)) :
    StableHlo.after hostOps0 W (Proc.devRef .tc main_cst_2) = constant S_ .f32 0x00000000#32 := by
  delta hostOps0
  after_results_simp

set_option maxHeartbeats 8000000 in
theorem after01_14 (W : Valuation τ sig (Elt F)) :
    StableHlo.after hostOps0_1 W (Proc.devRef .tc main_v14)
      = select (W main_v12) (W main_v13) (broadcastInDim S100000 ![] bcast_S_S100000 (id (W main_cst_2))) := by
  delta hostOps0_1
  after_results_simp
  rfl

set_option maxHeartbeats 8000000 in
theorem after02_30 (W : Valuation τ sig (Elt F)) :
    StableHlo.after hostOps0_2 W (Proc.devRef .tc main_v30) = normS (W main_v5) (W main_v6) (W main_v14) := by
  delta hostOps0_2
  after_results_simp
  rfl

set_option maxHeartbeats 8000000 in
theorem after1_44 (W : Valuation τ sig (Elt F)) :
    StableHlo.after hostOps1 W (Proc.devRef .tc main_v44) = fun i => shapeCast S1x64 (W main_arg3) shapeCasts_S64_S1x64 i := by
  delta hostOps1
  after_results_simp
  rfl

set_option maxHeartbeats 8000000 in
theorem after3_59 (W : Valuation τ sig (Elt F)) :
    StableHlo.after hostOps3 W (Proc.devRef .tc main_v59) = fun i => shapeCast S1x32 (W main_arg5) shapeCasts_S32_S1x32 i := by
  delta hostOps3
  after_results_simp
  rfl

set_option maxHeartbeats 8000000 in
theorem after4_61 (W : Valuation τ sig (Elt F)) :
    StableHlo.after hostOps4 W (Proc.devRef .tc main_v61) = fun i => shapeCast S32 (W main_v60) shapeCasts_S1x32_S32 i := by
  delta hostOps4
  after_results_simp
  rfl

/-! ## The valuations between @main's items, read at the references the regions and the later stretches use -/

variable (m : (ℓ : Loc nD τ sig) → Buf (Elt F) ℓ) (o : Gen.Outs (F := F))

theorem V1_5 (c : Dev nD) : Gen.V1 m c main_v5 = srcK (m ((c.tc : Thread nD τ).loc main_arg1)) := after0_5 (Gen.V0 m c)
theorem V1_6 (c : Dev nD) : Gen.V1 m c main_v6 = dstK (m ((c.tc : Thread nD τ).loc main_arg1)) := after0_6 (Gen.V0 m c)
theorem V1_12 (c : Dev nD) : Gen.V1 m c main_v12 = cmpf (F := F) .ogt (degK (dstK (m ((c.tc : Thread nD τ).loc main_arg1)))) (broadcastInDim S100000 ![] bcast_S_S100000 (constant S_ .f32 0x00000000#32)) := after0_12 (Gen.V0 m c)
theorem V1_13 (c : Dev nD) : Gen.V1 m c main_v13 = Host.rsqrt (degK (dstK (m ((c.tc : Thread nD τ).loc main_arg1)))) := after0_13 (Gen.V0 m c)
theorem V1_cst2 (c : Dev nD) : Gen.V1 m c main_cst_2 = constant S_ .f32 0x00000000#32 := after0_cst2 (Gen.V0 m c)

theorem V2_5 (c : Dev nD) : Gen.V2 m c main_v5 = srcK (m ((c.tc : Thread nD τ).loc main_arg1)) := (Gen.V2_of m c main_v5 (by decide)).trans (V1_5 m c)
theorem V2_6 (c : Dev nD) : Gen.V2 m c main_v6 = dstK (m ((c.tc : Thread nD τ).loc main_arg1)) := (Gen.V2_of m c main_v6 (by decide)).trans (V1_6 m c)
theorem V2_14 (c : Dev nD) : Gen.V2 m c main_v14 = dinvK (dstK (m ((c.tc : Thread nD τ).loc main_arg1))) := by
  refine (after01_14 (Gen.V1 m c)).trans ?_
  rw [V1_12 m c, V1_13 m c, V1_cst2 m c]; rfl

/-- After the three host stretches before the first region: the edge sources, -/
theorem V3_5 (c : Dev nD) : Gen.V3 m c main_v5 = srcK (m ((c.tc : Thread nD τ).loc main_arg1)) := (Gen.V3_of m c main_v5 (by decide)).trans (V2_5 m c)
/-- the edge destinations, -/
theorem V3_6 (c : Dev nD) : Gen.V3 m c main_v6 = dstK (m ((c.tc : Thread nD τ).loc main_arg1)) := (Gen.V3_of m c main_v6 (by decide)).trans (V2_6 m c)
/-- and the edge weights. -/
theorem V3_30 (c : Dev nD) : Gen.V3 m c main_v30 = normK (m ((c.tc : Thread nD τ).loc main_arg1)) := by
  refine (after02_30 (Gen.V2 m c)).trans ?_
  rw [V2_5 m c, V2_6 m c, V2_14 m c]; rfl

/-- The first region and the stretch after it keep the three. -/
theorem V4_keep (c : Dev nD) (r : Ref sig .tc) (h : r ∈ ([main_v5, main_v6, main_v30] : List (Ref sig .tc))) :
    Gen.V4 m o c r = Gen.V3 m c r := by
  simp only [List.mem_cons, List.mem_nil_iff, or_false] at h
  rcases h with rfl | rfl | rfl <;> exact Gen.V4_of m o c _ (by decide)

/-- So do the second and third regions and the stretch between. -/
theorem V7_keep (c : Dev nD) (r : Ref sig .tc) (h : r ∈ ([main_v5, main_v6, main_v30] : List (Ref sig .tc))) :
    Gen.V7 m o c r = Gen.V3 m c r := by
  simp only [List.mem_cons, List.mem_nil_iff, or_false] at h
  rcases h with rfl | rfl | rfl <;>
    exact (Gen.V7_of m o c _ (by decide)).trans ((Gen.V6_of m o c _ (by decide)).trans ((Gen.V5_of m o c _ (by decide)).trans (Gen.V4_of m o c _ (by decide))))

theorem V4_5 (c : Dev nD) : Gen.V4 m o c main_v5 = srcK (m ((c.tc : Thread nD τ).loc main_arg1)) := (V4_keep m o c _ (by decide)).trans (V3_5 m c)
theorem V4_6 (c : Dev nD) : Gen.V4 m o c main_v6 = dstK (m ((c.tc : Thread nD τ).loc main_arg1)) := (V4_keep m o c _ (by decide)).trans (V3_6 m c)
theorem V4_30 (c : Dev nD) : Gen.V4 m o c main_v30 = normK (m ((c.tc : Thread nD τ).loc main_arg1)) := (V4_keep m o c _ (by decide)).trans (V3_30 m c)
theorem V7_5 (c : Dev nD) : Gen.V7 m o c main_v5 = srcK (m ((c.tc : Thread nD τ).loc main_arg1)) := (V7_keep m o c _ (by decide)).trans (V3_5 m c)
theorem V7_6 (c : Dev nD) : Gen.V7 m o c main_v6 = dstK (m ((c.tc : Thread nD τ).loc main_arg1)) := (V7_keep m o c _ (by decide)).trans (V3_6 m c)
theorem V7_30 (c : Dev nD) : Gen.V7 m o c main_v30 = normK (m ((c.tc : Thread nD τ).loc main_arg1)) := (V7_keep m o c _ (by decide)).trans (V3_30 m c)

/-- The second region's first input: the first aggregation step, of what the first region left. -/
theorem V5_43 (c : Dev nD) :
    Gen.V5 m o c main_v43 = agg64K (srcK (m ((c.tc : Thread nD τ).loc main_arg1))) (dstK (m ((c.tc : Thread nD τ).loc main_arg1))) (normK (m ((c.tc : Thread nD τ).loc main_arg1))) (Gen.V4 m o c main_v31) := by
  refine (after1_43 (Gen.V4 m o c)).trans ?_
  rw [V4_5 m o c, V4_6 m o c, V4_30 m o c]

/-- The fourth region's first input: the second aggregation step, of what the third region left. -/
theorem V8_58 (c : Dev nD) :
    Gen.V8 m o c main_v58 = agg32K (srcK (m ((c.tc : Thread nD τ).loc main_arg1))) (dstK (m ((c.tc : Thread nD τ).loc main_arg1))) (normK (m ((c.tc : Thread nD τ).loc main_arg1))) (Gen.V7 m o c main_v46) := by
  refine (after3_58 (Gen.V7 m o c)).trans ?_
  rw [V7_5 m o c, V7_6 m o c, V7_30 m o c]

/-- The same two reads stated over the valuation's own contents. -/
theorem V5_43_at (c : Dev nD) :
    Gen.V5 m o c main_v43 = agg64K (Gen.V4 m o c main_v5) (Gen.V4 m o c main_v6) (Gen.V4 m o c main_v30) (Gen.V4 m o c main_v31) :=
  after1_43 (Gen.V4 m o c)
theorem V8_58_at (c : Dev nD) :
    Gen.V8 m o c main_v58 = agg32K (Gen.V7 m o c main_v5) (Gen.V7 m o c main_v6) (Gen.V7 m o c main_v30) (Gen.V7 m o c main_v46) :=
  after3_58 (Gen.V7 m o c)

/-! ## The arguments, unwritten -/

theorem V3_arg0 (c : Dev nD) : Gen.V3 m c main_arg0 = m ((c.tc : Thread nD τ).loc main_arg0) :=
  (Gen.V3_of m c main_arg0 (by decide)).trans ((Gen.V2_of m c main_arg0 (by decide)).trans ((Gen.V1_of m c main_arg0 (by decide)).trans rfl))
theorem V3_arg2 (c : Dev nD) : Gen.V3 m c main_arg2 = m ((c.tc : Thread nD τ).loc main_arg2) :=
  (Gen.V3_of m c main_arg2 (by decide)).trans ((Gen.V2_of m c main_arg2 (by decide)).trans ((Gen.V1_of m c main_arg2 (by decide)).trans rfl))
theorem V4_arg3 (c : Dev nD) : Gen.V4 m o c main_arg3 = m ((c.tc : Thread nD τ).loc main_arg3) :=
  (Gen.V4_of m o c main_arg3 (by decide)).trans ((Gen.V3_of m c main_arg3 (by decide)).trans ((Gen.V2_of m c main_arg3 (by decide)).trans ((Gen.V1_of m c main_arg3 (by decide)).trans rfl)))
theorem V6_arg4 (c : Dev nD) : Gen.V6 m o c main_arg4 = m ((c.tc : Thread nD τ).loc main_arg4) :=
  (Gen.V6_of m o c main_arg4 (by decide)).trans ((Gen.V5_of m o c main_arg4 (by decide)).trans ((Gen.V4_of m o c main_arg4 (by decide)).trans ((Gen.V3_of m c main_arg4 (by decide)).trans ((Gen.V2_of m c main_arg4 (by decide)).trans ((Gen.V1_of m c main_arg4 (by decide)).trans rfl)))))
theorem V7_arg5 (c : Dev nD) : Gen.V7 m o c main_arg5 = m ((c.tc : Thread nD τ).loc main_arg5) :=
  (Gen.V7_of m o c main_arg5 (by decide)).trans ((Gen.V6_of m o c main_arg5 (by decide)).trans ((Gen.V5_of m o c main_arg5 (by decide)).trans ((Gen.V4_of m o c main_arg5 (by decide)).trans ((Gen.V3_of m c main_arg5 (by decide)).trans ((Gen.V2_of m c main_arg5 (by decide)).trans ((Gen.V1_of m c main_arg5 (by decide)).trans rfl))))))

/-! ## The reshapes, at an index -/

open Idealize.ShloMosaic.ValueIdx in
/-- The second region's bias row is the bias argument. -/
theorem V5_44_apply (c : Dev nD) (k : Fin 64) :
    (Gen.V5 m o c main_v44 : S1x64.Idx → Elt F .f32) (ix2 (n0 := 1) (n1 := 64) 0 k)
      = (m ((c.tc : Thread nD τ).loc main_arg3) : S64.Idx → Elt F .f32) (ix1 k) := by
  refine (congrFun (after1_44 (Gen.V4 m o c)) (ix2 (n0 := 1) (n1 := 64) 0 k)).trans ?_
  refine (shapeCast_a_1a_apply _ _ 0 k).trans ?_
  rw [V4_arg3 m o c]

open Idealize.ShloMosaic.ValueIdx in
/-- The fourth region's bias row is the bias argument. -/
theorem V8_59_apply (c : Dev nD) (j : Fin 32) :
    (Gen.V8 m o c main_v59 : S1x32.Idx → Elt F .f32) (ix2 (n0 := 1) (n1 := 32) 0 j)
      = (m ((c.tc : Thread nD τ).loc main_arg5) : S32.Idx → Elt F .f32) (ix1 j) := by
  refine (congrFun (after3_59 (Gen.V7 m o c)) (ix2 (n0 := 1) (n1 := 32) 0 j)).trans ?_
  refine (shapeCast_a_1a_apply _ _ 0 j).trans ?_
  rw [V7_arg5 m o c]

open Idealize.ShloMosaic.ValueIdx in
/-- The result is the fourth region's output row. -/
theorem V10_61_apply (c : Dev nD) (j : Fin 32) :
    (Gen.V10 m o c main_v61 : S32.Idx → Elt F .f32) (ix1 j)
      = (Gen.V9 m o c main_v60 : S1x32.Idx → Elt F .f32) (ix2 (n0 := 1) (n1 := 32) 0 j) := by
  refine (congrFun (after4_61 (Gen.V9 m o c)) (ix1 j)).trans ?_
  exact shapeCast_1a_a_apply _ _ j

end Cert.KernelIdeal.Hand
end
-- ==== Proof.Spec.lean ====
import proofs.«153701_j33655363732257_1_alg».proof.Proof.RefRun

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-! # The reference's result as a composition of named stages

The graph has 100000 nodes and 3200000 edges `e` (row 0 the sources, row 1 the targets); every node also gets a
self loop. A layer multiplies the node features by a weight matrix, then sums over each node's incoming edges the
source's features scaled by the edge's normalisation. -/

/-- The edges' first row followed by the nodes' own numbers (the self loops). -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' second row followed by the nodes' own numbers. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end. -/
def wrap (i : (⟨S3300000, .i32⟩ : BufTy).Contents (Elt F)) : (⟨S3300000, .i32⟩ : BufTy).Contents (Elt F) :=
  select (cmpi .slt i (broadcastInDim S3300000 ![] bcast_S_S3300000 (constantI S_ 32 0#32))) (addi i (broadcastInDim S3300000 ![] bcast_S_S3300000 (constantI S_ 32 100000#32))) i

/-- Each node's degree: one per edge into it, self loop included. -/
def deg (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dst e)) (broadcastInDim S3300000 ![] bcast_S_S3300000 (constant S_ .f32 0x3F800000#32))

/-- One over the square root of the degree, zero where the degree is not positive. -/
def dinv (e : (⟨S2x3200000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- Each edge's normalisation: the product of `dinv` at its two ends. -/
def normFlat (e : (⟨S2x3200000, .i32⟩ : BufTy).Contents (Elt F)) : (⟨S3300000, .f32⟩ : BufTy).Contents (Elt F) :=
  mulf (Host.gather gather_S100000_S3300000x1_S3300000_n_0_n_n_0_1_1 (dinv e) (broadcastInDim S3300000x1 ![0] bcast_S3300000_S3300000x1_0 (wrap (src e)))) (Host.gather gather_S100000_S3300000x1_S3300000_n_0_n_n_0_1_1 (dinv e) (broadcastInDim S3300000x1 ![0] bcast_S3300000_S3300000x1_0 (wrap (dst e))))

/-- The same as one column. -/
def norm (e : (⟨S2x3200000, .i32⟩ : BufTy).Contents (Elt F)) : (⟨S3300000x1, .f32⟩ : BufTy).Contents (Elt F) :=
  broadcastInDim S3300000x1 ![0] bcast_S3300000_S3300000x1_0 (normFlat e)

/-- The normalised sum over incoming edges of 64 features per node. -/
def agg64 (e : (⟨S2x3200000, .i32⟩ : BufTy).Contents (Elt F)) (h : (⟨S100000x64, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dst e)) (mulf (Host.gather gather_S100000x64_S3300000x1_S3300000x64_1_0_n_n_0_1_164 h (broadcastInDim S3300000x1 ![0] bcast_S3300000_S3300000x1_0 (wrap (src e)))) (broadcastInDim S3300000x64 ![0, 1] bcast_S3300000x1_S3300000x64_0_1 (norm e)))

/-- The normalised sum over incoming edges of 32 features per node. -/
def agg32 (e : (⟨S2x3200000, .i32⟩ : BufTy).Contents (Elt F)) (h : (⟨S100000x32, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 (dst e)) (mulf (Host.gather gather_S100000x32_S3300000x1_S3300000x32_1_0_n_n_0_1_132 h (broadcastInDim S3300000x1 ![0] bcast_S3300000_S3300000x1_0 (wrap (src e)))) (broadcastInDim S3300000x32 ![0, 1] bcast_S3300000x1_S3300000x32_0_1 (norm e)))

/-- The first layer's bias and rectifier. -/
def layer1 (a : (⟨S100000x64, .f32⟩ : BufTy).Contents (Elt F)) (b1 : (⟨S64, .f32⟩ : BufTy).Contents (Elt F)) : (⟨S100000x64, .f32⟩ : BufTy).Contents (Elt F) :=
  maximumf (addf a (broadcastInDim S100000x64 ![0, 1] bcast_S1x64_S100000x64_0_1 (broadcastInDim S1x64 ![1] bcast_S64_S1x64_1 b1))) (broadcastInDim S100000x64 ![] bcast_S_S100000x64 (constant S_ .f32 0x00000000#32))

/-- The second layer's bias, then the mean over the nodes. -/
def meanBias (X : (⟨S100000x32, .f32⟩ : BufTy).Contents (Elt F)) (b2 : (⟨S32, .f32⟩ : BufTy).Contents (Elt F)) : (⟨S32, .f32⟩ : BufTy).Contents (Elt F) :=
  Host.divf (Host.reduceAdd (addf X (broadcastInDim S100000x32 ![0, 1] bcast_S1x32_S100000x32_0_1 (broadcastInDim S1x32 ![1] bcast_S32_S1x32_1 b2))) (constant S_ .f32 0x00000000#32) reducesTo_S100000x32_S32_d0 h_S_) (broadcastInDim S32 ![] bcast_S_S32 (constant S_ .f32 0x47C35000#32))

/-- The reference's result, of its six arguments. -/
def refOut (x : (⟨S100000x4, .f32⟩ : BufTy).Contents (Elt F)) (e : (⟨S2x3200000, .i32⟩ : BufTy).Contents (Elt F)) (W1 : (⟨S4x64, .f32⟩ : BufTy).Contents (Elt F)) (b1 : (⟨S64, .f32⟩ : BufTy).Contents (Elt F))
    (W2 : (⟨S64x32, .f32⟩ : BufTy).Contents (Elt F)) (b2 : (⟨S32, .f32⟩ : BufTy).Contents (Elt F)) : (⟨S32, .f32⟩ : BufTy).Contents (Elt F) :=
  meanBias (agg32 e (Host.dotGeneral dot_S100000x64_S64x32_S100000x32_1_0_0_1_n_n none (layer1 (agg64 e (Host.dotGeneral dot_S100000x4_S4x64_S100000x64_1_0_0_1_n_n none x W1)) b1) W2)) b2

set_option maxRecDepth 8192 in
/-- The reference run's composed term is `refOut` of the argument arrays. -/
theorem res_eq (m : (ℓ : Loc nD τ sig) → Buf (Elt F) ℓ) (c : Dev nD) :
    Cert.ReferenceIdeal.ValueP.res_main_v97 (F := F) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v97 refOut meanBias agg32 agg64 layer1 norm normFlat dinv deg wrap src dst
  rfl

end Cert.Spec

end
-- ==== Proof.KI.Bridge.lean ====
import proofs.«153701_j33655363732257_1_alg».proof.Proof.KI.Host
import proofs.«153701_j33655363732257_1_alg».proof.Proof.Spec

set_option maxRecDepth 16384

noncomputable section

namespace Cert.KernelIdeal.Hand

open Cert.KernelIdeal Cert.KernelIdeal.Gen Idealize.ShloMosaic Idealize.ShloMosaic.TcCoe Idealize.ShloMosaic.StableHlo
open Idealize.SL.Sem

variable {F : FTy → Type} [FloatOps F] [Named F]

/-! # The kernel program's host stages are the reference's

The two programs print the same shapes and dimension records under their own names; the stage functions read off
the kernel's host stretches and the ones read off the reference's result unfold to the same terms. -/

/-- The edge sources. -/
theorem src_bridge (e : (⟨S2x3200000, .i32⟩ : BufTy).Contents (Elt F)) : srcK e = Cert.Spec.src e := by
  unfold srcK Cert.Spec.src
  rfl

/-- The edge targets. -/
theorem dst_bridge (e : (⟨S2x3200000, .i32⟩ : BufTy).Contents (Elt F)) : dstK e = Cert.Spec.dst e := by
  unfold dstK Cert.Spec.dst
  rfl

/-- The degrees, of the targets. -/
theorem deg_bridge (e : (⟨S2x3200000, .i32⟩ : BufTy).Contents (Elt F)) : degK (dstK e) = Cert.Spec.deg e := by
  rw [dst_bridge]
  unfold degK Cert.Spec.deg
  rfl

/-- One over the square roots of the degrees. -/
theorem dinv_bridge (e : (⟨S2x3200000, .i32⟩ : BufTy).Contents (Elt F)) : dinvK (dstK e) = Cert.Spec.dinv e := by
  unfold dinvK Cert.Spec.dinv
  rw [deg_bridge]

/-- The edges' normalisation, as one column. -/
theorem norm_bridge (e : (⟨S2x3200000, .i32⟩ : BufTy).Contents (Elt F)) : normK e = Cert.Spec.norm e := by
  unfold normK
  rw [dinv_bridge, src_bridge, dst_bridge]
  unfold normS Cert.Spec.norm Cert.Spec.normFlat Cert.Spec.wrap
  rfl

/-- The normalised sum over incoming edges, 64 features per node. -/
theorem agg64_bridge (e : (⟨S2x3200000, .i32⟩ : BufTy).Contents (Elt F)) (h : (⟨S100000x64, .f32⟩ : BufTy).Contents (Elt F)) :
    agg64K (srcK e) (dstK e) (normK e) h = Cert.Spec.agg64 e h := by
  rw [norm_bridge, src_bridge, dst_bridge]
  unfold agg64K Cert.Spec.agg64 Cert.Spec.wrap
  rfl

/-- The normalised sum over incoming edges, 32 features per node. -/
theorem agg32_bridge (e : (⟨S2x3200000, .i32⟩ : BufTy).Contents (Elt F)) (h : (⟨S100000x32, .f32⟩ : BufTy).Contents (Elt F)) :
    agg32K (srcK e) (dstK e) (normK e) h = Cert.Spec.agg32 e h := by
  rw [norm_bridge, src_bridge, dst_bridge]
  unfold agg32K Cert.Spec.agg32 Cert.Spec.wrap
  rfl

end Cert.KernelIdeal.Hand

end
-- ==== Proof.RefVal.lean ====
import proofs.«153701_j33655363732257_1_alg».proof.Proof.Spec
import proofs.«153701_j33655363732257_1_alg».proof.Proof.KI.Val0
import proofs.«153701_j33655363732257_1_alg».proof.Proof.KI.Val1
import proofs.«153701_j33655363732257_1_alg».proof.Proof.KI.Val2
import Idealize.ShloMosaic.Lib.Pipeline.Value
import Idealize.ShloMosaic.Lib.ValueIdx
import Idealize.ShloMosaic.Lib.ValueLayout
import Idealize.ShloMosaic.PureOps.Ideal.Laws

noncomputable section

namespace Cert.Spec

open Cert.ReferenceIdeal Cert.ReferenceIdeal.Gen Idealize.ShloMosaic Idealize.ShloMosaic.TcCoe Idealize.SL.Sem Idealize.ShloMosaic.StableHlo
open Idealize.ShloMosaic.ValueIdx

/-! # The reference's stages at the ideal values -/

/-- The divisor's pattern denotes the real 100000. -/
theorem ofBits_100000 : Ideal.ofBits .f32 0x47C35000#32 = ((100000 : ℝ) : EReal) := by
  simp [Ideal.ofBits, Ideal.ieee, -EReal.coe_mul]; norm_num

/-- Dividing a sum plus 100000 copies of `b` by 100000: the factor 1/100000 is a nonnegative real, so it distributes
    over the sum of any two extended reals. -/
theorem mean_add_const (S b : EReal) :
    Ideal.div (S + (100000 : ℕ) • b) ((100000 : ℝ) : EReal) = S * ((1 / 100000 : ℝ) : EReal) + b := by
  rw [Ideal.div_coe (by norm_num : (100000 : ℝ) ≠ 0)]
  rw [EReal.right_distrib_of_nonneg_of_ne_top (EReal.coe_nonneg.mpr (by norm_num)) (EReal.coe_ne_top _)]
  congr 1
  rw [EReal.nsmul_eq_mul, mul_comm ((100000 : ℕ) : EReal) b, mul_assoc]
  have h1 : ((100000 : ℕ) : EReal) * ((1 / 100000 : ℝ) : EReal) = 1 := by
    rw [show ((100000 : ℕ) : EReal) = ((100000 : ℝ) : EReal) from by norm_cast, ← EReal.coe_mul]
    norm_num
  rw [h1, mul_one]

/-- The host's sum over axis 0 from a zero initial value, at column `j`: the sum down the column. -/
theorem reduce_rows (Y : FVec Ideal S100000x32 .f32) (j : Fin 32) :
    Host.reduceAdd (F := Ideal) Y (constant S_ .f32 0x00000000#32) reducesTo_S100000x32_S32_d0 h_S_ (ix1 j)
      = ∑ r : Fin 100000, Y (ix2 r j) := by
  simp only [Host.reduceAdd, Ideal.hostReduceAdd_def]
  rw [Ideal.hostReduceAdd_single reducesTo_S100000x32_S32_d0 (by decide)]
  refine (congrArg (· + _) Ideal.ofBits_zero_f32).trans ?_
  rw [zero_add]
  refine Finset.sum_congr rfl fun k _ => ?_
  exact congrArg Y (funext fun a => Fin.ext (by match a with | ⟨0, _⟩ => rfl | ⟨1, _⟩ => rfl))

/-- A [32] row broadcast down 100000 rows reads the row's entry in the column. -/
theorem bias32_apply {α : Type} (b2 : S32.Idx → α) (r : Fin 100000) (j : Fin 32) :
    broadcastInDim S100000x32 ![0, 1] bcast_S1x32_S100000x32_0_1 (broadcastInDim S1x32 ![1] bcast_S32_S1x32_1 b2) (ix2 r j) = b2 (ix1 j) := by
  generalize hy : broadcastInDim S1x32 ![1] bcast_S32_S1x32_1 b2 = y
  refine (broadcastInDim_apply _ bcast_S1x32_S100000x32_0_1 y (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])).trans ?_
  subst hy
  exact broadcastInDim_apply _ bcast_S32_S1x32_1 b2 (ix2 (0 : Fin 1) j) (ix1 j) (fun a => match a with
    | ⟨0, _⟩ => by show j.val = if (32 : Nat) = 1 then 0 else j.val; rw [if_neg (by decide)])

/-- The divisor vector reads 100000 everywhere. -/
theorem divisor_apply (j : Fin 32) :
    broadcastInDim S32 ![] bcast_S_S32 (constant (F := Ideal) S_ .f32 0x47C35000#32) (ix1 j) = ((100000 : ℝ) : EReal) := by
  generalize hy : constant (F := Ideal) S_ .f32 0x47C35000#32 = y
  refine (broadcastInDim_apply _ bcast_S_S32 y (ix1 j) (fun a => a.elim0) (fun a => a.elim0)).trans ?_
  subst hy
  exact ofBits_100000

/-- THE LAST STAGE: the column's sum times 1/100000, plus the bias — for all extended reals. -/
theorem meanBias_apply (X : FVec Ideal S100000x32 .f32) (b2 : FVec Ideal S32 .f32) (j : Fin 32) :
    meanBias (F := Ideal) X b2 (ix1 j) = (∑ r : Fin 100000, X (ix2 r j)) * ((1 / 100000 : ℝ) : EReal) + b2 (ix1 j) := by
  unfold meanBias
  refine (congrArg₂ Ideal.div (reduce_rows _ j) (divisor_apply j)).trans ?_
  have hs : (∑ r : Fin 100000, addf (F := Ideal) X (broadcastInDim S100000x32 ![0, 1] bcast_S1x32_S100000x32_0_1 (broadcastInDim S1x32 ![1] bcast_S32_S1x32_1 b2)) (ix2 r j))
      = (∑ r : Fin 100000, X (ix2 r j)) + (100000 : ℕ) • b2 (ix1 j) := by
    have hr : ∀ r : Fin 100000, addf (F := Ideal) X (broadcastInDim S100000x32 ![0, 1] bcast_S1x32_S100000x32_0_1 (broadcastInDim S1x32 ![1] bcast_S32_S1x32_1 b2)) (ix2 r j)
        = X (ix2 r j) + b2 (ix1 j) := fun r => congrArg (X (ix2 r j) + ·) (bias32_apply b2 r j)
    rw [Finset.sum_congr rfl (fun r _ => hr r), Finset.sum_add_distrib, Finset.sum_const, Finset.card_univ, Fintype.card_fin]
  rw [hs]
  exact mean_add_const _ _

/-- The first layer's product: the row-and-column indices the contraction reads. -/
theorem dot1_lhs0 (i : S100000x64.Idx) (q : dot_S100000x4_S4x64_S100000x64_1_0_0_1_n_n.contr.Idx) : (dot_S100000x4_S4x64_S100000x64_1_0_0_1_n_n.lhsIdx i q 0).val = (i 0).val := by
  unfold DotDims.lhsIdx
  rw [dif_neg (show ¬(0 : Fin S100000x4.rank) ∈ dot_S100000x4_S4x64_S100000x64_1_0_0_1_n_n.lhsBatch by decide), dif_pos (show (0 : Fin S100000x4.rank) ∈ dot_S100000x4_S4x64_S100000x64_1_0_0_1_n_n.lhsNonContracting by decide)]
  rfl
theorem dot1_lhs1 (i : S100000x64.Idx) (q : dot_S100000x4_S4x64_S100000x64_1_0_0_1_n_n.contr.Idx) : (dot_S100000x4_S4x64_S100000x64_1_0_0_1_n_n.lhsIdx i q 1).val = (q ⟨0, by decide⟩).val :=
  dot_S100000x4_S4x64_S100000x64_1_0_0_1_n_n.lhsIdx_val_of_single rfl i q
theorem dot1_rhs0 (i : S100000x64.Idx) (q : dot_S100000x4_S4x64_S100000x64_1_0_0_1_n_n.contr.Idx) : (dot_S100000x4_S4x64_S100000x64_1_0_0_1_n_n.rhsIdx i q 0).val = (q ⟨0, by decide⟩).val :=
  dot_S100000x4_S4x64_S100000x64_1_0_0_1_n_n.rhsIdx_val_of_single rfl i q
theorem dot1_rhs1 (i : S100000x64.Idx) (q : dot_S100000x4_S4x64_S100000x64_1_0_0_1_n_n.contr.Idx) : (dot_S100000x4_S4x64_S100000x64_1_0_0_1_n_n.rhsIdx i q 1).val = (i 1).val := by
  unfold DotDims.rhsIdx
  rw [dif_neg (show ¬(1 : Fin S4x64.rank) ∈ dot_S100000x4_S4x64_S100000x64_1_0_0_1_n_n.rhsBatch by decide), dif_pos (show (1 : Fin S4x64.rank) ∈ dot_S100000x4_S4x64_S100000x64_1_0_0_1_n_n.rhsNonContracting by decide)]
  rfl

/-- The first layer's product at the ideal values is the matrix product, entry by entry. -/
theorem dot1_eq (x : FVec Ideal S100000x4 .f32) (W : FVec Ideal S4x64 .f32) :
    Host.dotGeneral (F := Ideal) dot_S100000x4_S4x64_S100000x64_1_0_0_1_n_n none x W = Cert.KernelIdeal.Hand.prod0 x W := by
  funext i
  simp only [Host.dotGeneral]
  rw [Ideal.dotGeneral_apply, ← Equiv.sum_comp (contrEquiv1 dot_S100000x4_S4x64_S100000x64_1_0_0_1_n_n 4 rfl rfl).symm]
  unfold Cert.KernelIdeal.Hand.prod0
  refine Finset.sum_congr rfl fun k _ => ?_
  have hk := contrEquiv1_symm_val dot_S100000x4_S4x64_S100000x64_1_0_0_1_n_n 4 rfl rfl k
  have el : dot_S100000x4_S4x64_S100000x64_1_0_0_1_n_n.lhsIdx i ((contrEquiv1 dot_S100000x4_S4x64_S100000x64_1_0_0_1_n_n 4 rfl rfl).symm k) = ix2 (n0 := 100000) (n1 := 4) (i 0) k := funext fun a => Fin.ext (by
    match a with
    | ⟨0, _⟩ => exact dot1_lhs0 _ _
    | ⟨1, _⟩ => exact (dot1_lhs1 _ _).trans hk)
  have er : dot_S100000x4_S4x64_S100000x64_1_0_0_1_n_n.rhsIdx i ((contrEquiv1 dot_S100000x4_S4x64_S100000x64_1_0_0_1_n_n 4 rfl rfl).symm k) = ix2 (n0 := 4) (n1 := 64) k (i 1) := funext fun a => Fin.ext (by
    match a with
    | ⟨0, _⟩ => exact (dot1_rhs0 _ _).trans hk
    | ⟨1, _⟩ => exact dot1_rhs1 _ _)
  rw [el, er]

/-- The second layer's product: the row-and-column indices the contraction reads. -/
theorem dot2_lhs0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem dot2_lhs1 (i : S100000x32.Idx) (q : dot_S100000x64_S64x32_S100000x32_1_0_0_1_n_n.contr.Idx) : (dot_S100000x64_S64x32_S100000x32_1_0_0_1_n_n.lhsIdx i q 1).val = (q ⟨0, by decide⟩).val :=
  dot_S100000x64_S64x32_S100000x32_1_0_0_1_n_n.lhsIdx_val_of_single rfl i q
theorem dot2_rhs0 (i : S100000x32.Idx) (q : dot_S100000x64_S64x32_S100000x32_1_0_0_1_n_n.contr.Idx) : (dot_S100000x64_S64x32_S100000x32_1_0_0_1_n_n.rhsIdx i q 0).val = (q ⟨0, by decide⟩).val :=
  dot_S100000x64_S64x32_S100000x32_1_0_0_1_n_n.rhsIdx_val_of_single rfl i q
theorem dot2_rhs1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The second layer's product at the ideal values is the matrix product, entry by entry. -/
theorem dot2_eq (x : FVec Ideal S100000x64 .f32) (W : FVec Ideal S64x32 .f32) :
    Host.dotGeneral (F := Ideal) dot_S100000x64_S64x32_S100000x32_1_0_0_1_n_n none x W = Cert.KernelIdeal.Hand.prod2 x W := by
  funext i
  simp only [Host.dotGeneral]
  rw [Ideal.dotGeneral_apply, ← Equiv.sum_comp (contrEquiv1 dot_S100000x64_S64x32_S100000x32_1_0_0_1_n_n 64 rfl rfl).symm]
  unfold Cert.KernelIdeal.Hand.prod2
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx i ((contrEquiv1 dot_S100000x64_S64x32_S100000x32_1_0_0_1_n_n 64 rfl rfl).symm k) = ix2 (n0 := 100000) (n1 := 64) (i 0) k := funext fun a => Fin.ext (by
    match a with
    | ⟨0, _⟩ => exact dot2_lhs0 _ _
    | ⟨1, _⟩ => exact (dot2_lhs1 _ _).trans hk)
  have er : dot_S100000x64_S64x32_S100000x32_1_0_0_1_n_n.rhsIdx i ((contrEquiv1 dot_S100000x64_S64x32_S100000x32_1_0_0_1_n_n 64 rfl rfl).symm k) = ix2 (n0 := 64) (n1 := 32) k (i 1) := funext fun a => Fin.ext (by
    match a with
    | ⟨0, _⟩ => exact (dot2_rhs0 _ _).trans hk
    | ⟨1, _⟩ => exact dot2_rhs1 _ _)
  rw [el, er]

/-- A [64] row broadcast down 100000 rows reads the row's entry in the column. -/
theorem bias64_apply {α : Type} (b1 : S64.Idx → α) (r : Fin 100000) (q : Fin 64) :
    broadcastInDim S100000x64 ![0, 1] bcast_S1x64_S100000x64_0_1 (broadcastInDim S1x64 ![1] bcast_S64_S1x64_1 b1) (ix2 r q) = b1 (ix1 q) := by
  generalize hy : broadcastInDim S1x64 ![1] bcast_S64_S1x64_1 b1 = y
  refine (broadcastInDim_apply _ bcast_S1x64_S100000x64_0_1 y (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  subst hy
  exact broadcastInDim_apply _ bcast_S64_S1x64_1 b1 (ix2 (0 : Fin 1) q) (ix1 q) (fun a => match a with
    | ⟨0, _⟩ => by show q.val = if (64 : Nat) = 1 then 0 else q.val; rw [if_neg (by decide)])

/-- A [64] vector recast as one row reads the vector's entry in the column. -/
theorem row64_apply {α : Type} (b1 : S64.Idx → α) (h : S64.ShapeCasts S1x64) (q : Fin 64) :
    shapeCast S1x64 b1 h (ix2 (0 : Fin 1) q) = b1 (ix1 q) := by
  refine shapeCast_apply b1 h (ix2 (0 : Fin 1) q) (ix1 q) ?_
  rw [Shape.rowMajor_val_one, Shape.rowMajor_val_two]
  show q.val = (0 : Fin 1).val * 64 + q.val
  simp

/-- The first layer's bias and rectifier at the ideal values, with the bias as the one row the kernel is handed. -/
theorem layer1_eq (a : FVec Ideal S100000x64 .f32) (b1 : FVec Ideal S64 .f32) (h : S64.ShapeCasts S1x64) :
    layer1 (F := Ideal) a b1 = Cert.KernelIdeal.Hand.biasRelu1 a (shapeCast S1x64 b1 h) := by
  funext i
  unfold layer1 Cert.KernelIdeal.Hand.biasRelu1
  have hi := eq_ix2 (n0 := 100000) (n1 := 64) i
  have hb : broadcastInDim S100000x64 ![0, 1] bcast_S1x64_S100000x64_0_1 (broadcastInDim S1x64 ![1] bcast_S64_S1x64_1 b1) i
      = shapeCast S1x64 b1 h (ix2 (n0 := 1) (n1 := 64) (0 : Fin 1) (i 1)) :=
    (congrArg _ hi).trans ((bias64_apply b1 (i 0) (i 1)).trans (row64_apply b1 h (i 1)).symm)
  have hz : broadcastInDim S100000x64 ![] bcast_S_S100000x64 (constant (F := Ideal) S_ .f32 0x00000000#32) i = (0 : EReal) := by
    generalize hy : constant (F := Ideal) S_ .f32 0x00000000#32 = y
    refine (broadcastInDim_apply _ bcast_S_S100000x64 y i (fun a => a.elim0) (fun a => a.elim0)).trans ?_
    subst hy
    exact Ideal.ofBits_zero_f32
  exact congrArg₂ max (congrArg (a i + ·) hb) hz

/-- THE REFERENCE'S RESULT at the ideal values, at entry `j`: through the kernel side's stage functions. -/
theorem refOut_apply (x : FVec Ideal S100000x4 .f32) (e : (⟨S2x3200000, .i32⟩ : BufTy).Contents (Elt Ideal)) (W1 : FVec Ideal S4x64 .f32) (b1 : FVec Ideal S64 .f32)
    (W2 : FVec Ideal S64x32 .f32) (b2 : FVec Ideal S32 .f32) (h : S64.ShapeCasts S1x64) (j : Fin 32) :
    refOut (F := Ideal) x e W1 b1 W2 b2 (ix1 j)
      = (∑ r : Fin 100000, agg32 (F := Ideal) e (Cert.KernelIdeal.Hand.prod2 (Cert.KernelIdeal.Hand.biasRelu1 (agg64 (F := Ideal) e (Cert.KernelIdeal.Hand.prod0 x W1)) (shapeCast S1x64 b1 h)) W2) (ix2 r j))
          * ((1 / 100000 : ℝ) : EReal) + b2 (ix1 j) := by
  unfold refOut
  rw [dot1_eq, layer1_eq _ _ h, dot2_eq]
  exact meanBias_apply _ _ j

end Cert.Spec
end
-- ==== Proof.KI.Value.lean ====
import proofs.«153701_j33655363732257_1_alg».proof.Proof.KI.Run
import proofs.«153701_j33655363732257_1_alg».proof.Proof.KI.Val0
import proofs.«153701_j33655363732257_1_alg».proof.Proof.KI.Val1
import proofs.«153701_j33655363732257_1_alg».proof.Proof.KI.Val2
import proofs.«153701_j33655363732257_1_alg».proof.Proof.KI.Val3
import proofs.«153701_j33655363732257_1_alg».proof.Proof.KI.Host
import proofs.«153701_j33655363732257_1_alg».proof.Proof.KI.Bridge
import proofs.«153701_j33655363732257_1_alg».proof.Proof.RefVal

noncomputable section

namespace Cert.KernelIdeal.Hand

open Cert.KernelIdeal Cert.KernelIdeal.Gen
open Idealize.ShloMosaic Idealize.ShloMosaic.TcCoe Idealize.ShloMosaic.ValueIdx Idealize.SL.Sem

/-! # The kernel program's result at the ideal values is the reference's

Read from the last valuation back to the launch memory: the result buffer is the reshape of region 3's row; that row is,
column by column, the sum down the second aggregation's array times 1/100000 plus the second bias; the aggregation is
the shared scatter of scaled gathered rows applied to region 2's product; that product is of region 1's rectified rows
with W2; those are the first aggregation of region 0's product x·W1 plus the first bias, cut at zero. The reference's
term is the same composition, with its last step in the other order. -/

variable (m : (ℓ : Loc nD τ sig) → Buf (Elt Ideal) ℓ)

/-- The six arguments as arrays of extended reals (and the edge list as words). -/
abbrev ax (c : Dev nD) : FVec Ideal S100000x4 .f32 := m ((c.tc : Thread nD τ).loc main_arg0)
abbrev ae (c : Dev nD) : (⟨S2x3200000, .i32⟩ : BufTy).Contents (Elt Ideal) := m ((c.tc : Thread nD τ).loc main_arg1)
abbrev aW1 (c : Dev nD) : FVec Ideal S4x64 .f32 := m ((c.tc : Thread nD τ).loc main_arg2)
abbrev ab1 (c : Dev nD) : FVec Ideal S64 .f32 := m ((c.tc : Thread nD τ).loc main_arg3)
abbrev aW2 (c : Dev nD) : FVec Ideal S64x32 .f32 := m ((c.tc : Thread nD τ).loc main_arg4)
abbrev ab2 (c : Dev nD) : FVec Ideal S32 .f32 := m ((c.tc : Thread nD τ).loc main_arg5)

/-- Region 0 leaves the product x·W1. -/
theorem o4_eq (c : Dev nD) : o4 m c = prod0 (ax m c) (aW1 m c) := by
  unfold o4
  refine (final0 (fun c b => Gen.V3 m c b) c).trans ?_
  show prod0 (Gen.V3 m c main_arg0) (Gen.V3 m c main_arg2) = _
  rw [V3_arg0, V3_arg2]

/-- Region 1 is entered with region 0's output in place. -/
theorem V4_31 (c : Dev nD) : Gen.V4 m (outsA m) c main_v31 = o4 m c :=
  (Function.update_self ..).trans (outsA_31 m 4 c)

/-- Region 1's first input array is the first aggregation of x·W1. -/
theorem in43_eq (c : Dev nD) :
    Gen.V5 m (outsA m) c main_v43 = Cert.Spec.agg64 (F := Ideal) (ae m c) (prod0 (ax m c) (aW1 m c)) :=
  (V5_43 m (outsA m) c).trans (by rw [V4_31, o4_eq]; exact agg64_bridge _ _)

/-- Region 1 leaves the rectified first layer: the aggregation plus the first bias, cut at zero. -/
theorem o6_eq (c : Dev nD) :
    o6 m c = biasRelu1 (Cert.Spec.agg64 (F := Ideal) (ae m c) (prod0 (ax m c) (aW1 m c))) (shapeCast S1x64 (ab1 m c) shapeCasts_S64_S1x64) := by
  unfold o6
  refine (final1 (fun c b => Gen.V5 m (outsA m) c b) c).trans ?_
  show biasRelu1 (Gen.V5 m (outsA m) c main_v43) (Gen.V5 m (outsA m) c main_v44) = _
  rw [in43_eq]
  funext i
  exact congrArg (fun t => max (Cert.Spec.agg64 (F := Ideal) (ae m c) (prod0 (ax m c) (aW1 m c)) i + t) 0)
    ((V5_44_apply m (outsA m) c (i 1)).trans (Cert.Spec.row64_apply (ab1 m c) shapeCasts_S64_S1x64 (i 1)).symm)

/-- Region 2 is entered with region 1's output in place. -/
theorem V6_45 (c : Dev nD) : Gen.V6 m (outsB m) c main_v45 = o6 m c :=
  (Function.update_self ..).trans (outsB_45 m 6 c)

/-- Region 2 leaves the product of the rectified first layer with W2. -/
theorem o7_eq (c : Dev nD) : o7 m c = prod2 (o6 m c) (aW2 m c) := by
  unfold o7
  refine (final2 (fun c b => Gen.V6 m (outsB m) c b) c).trans ?_
  show prod2 (Gen.V6 m (outsB m) c main_v45) (Gen.V6 m (outsB m) c main_arg4) = _
  rw [V6_45, V6_arg4]

/-- The fifth host stretch is entered with region 2's output in place. -/
theorem V7_46 (c : Dev nD) : Gen.V7 m (outsC m) c main_v46 = o7 m c :=
  (Function.update_self ..).trans (outsC_46 m 7 c)

/-- Region 3's first input array is the second aggregation of region 2's product. -/
theorem in58_eq (c : Dev nD) : Gen.V8 m (outsC m) c main_v58 = Cert.Spec.agg32 (F := Ideal) (ae m c) (o7 m c) :=
  (V8_58 m (outsC m) c).trans (by rw [V7_46]; exact agg32_bridge _ _)

/-- The last reshape reads region 3's output. -/
theorem V9_60 (c : Dev nD) : Gen.V9 m (outs m) c main_v60 = o9 m c :=
  (Function.update_self ..).trans (outs_60 m 9 c)

/-- The kernel program's result at column `j`: the sum down the second aggregation's column times 1/100000, plus the
    second bias. -/
theorem kernel_apply (c : Dev nD) (j : Fin 32) :
    (Gen.V10 m (outs m) c main_v61 : S32.Idx → EReal) (ix1 j)
      = (∑ r : Fin 100000, (Cert.Spec.agg32 (F := Ideal) (ae m c) (o7 m c) : S100000x32.Idx → EReal) (ix2 (n0 := 100000) (n1 := 32) r j))
          * ((1 / 100000 : ℝ) : EReal) + ab2 m c (ix1 j) := by
  refine (V10_61_apply m (outs m) c j).trans ?_
  rw [V9_60]
  unfold o9
  refine (final3_apply (fun c b => Gen.V8 m (outsC m) c b) c j).trans ?_
  have h58 : in3_0 (fun c b => Gen.V8 m (outsC m) c b) c = (Cert.Spec.agg32 (F := Ideal) (ae m c) (o7 m c) : S100000x32.Idx → EReal) :=
    in58_eq m c
  have h59 : in3_1 (fun c b => Gen.V8 m (outsC m) c b) c (ix2 (n0 := 1) (n1 := 32) 0 j) = ab2 m c (ix1 j) :=
    V8_59_apply m (outsC m) c j
  rw [h58, h59]

/-- The kernel program's result buffer holds the reference's function of the arguments. -/
theorem value_eq (c : Dev nD) :
    Gen.V10 m (outs m) c main_v61 = Cert.Spec.refOut (F := Ideal) (ax m c) (ae m c) (aW1 m c) (ab1 m c) (aW2 m c) (ab2 m c) := by
  funext i
  obtain ⟨j, rfl⟩ : ∃ j : Fin 32, i = ix1 j := ⟨i 0, eq_ix1 i⟩
  rw [Cert.Spec.refOut_apply _ _ _ _ _ _ shapeCasts_S64_S1x64 j]
  refine (kernel_apply m c j).trans ?_
  rw [o7_eq, o6_eq]

end Cert.KernelIdeal.Hand

end
-- ==== Proof.lean ====
/-
  The certificate of a two-layer graph convolution whose dense stages run as four TensorCore kernels.

  The kernel program computes, on the host, the symmetric normalisation of the graph with self loops (degrees by a
  scatter-add of ones, their inverse square roots, one coefficient per edge) and the two neighbourhood aggregations
  (a row gather, a scale by the edge's coefficient, a scatter-add by destination); on the TensorCore, tiled in twenty
  blocks of 5000 rows, the two matrix products x·W1 and h1·W2, the bias-and-rectifier stage, and the mean over the
  100000 nodes plus the second bias — the mean as a column sum accumulated in a scratch buffer across the blocks and
  multiplied at the last block by the reciprocal 1/100000, a named constant of the idealized kernel. The reference
  computes the same composition with plain matrix products, adds the second bias to every row and then divides the
  column sums by 100000.

  At the ideal instance the two agree on every extended real: the products are the same finite sums however they are
  tiled, the shared gather and scatter stages are the same functions of equal arguments, and for the last step
  (∑ r, (a r + b)) / N = (∑ r, a r) · (1/N) + b, because a nonnegative real factor distributes over any sum of extended
  reals. No hypothesis on the inputs is used.

  The frames: each program terminates without a fault and leaves its argument arrays unchanged. For the two kernel
  programs this is the run of @main as ten segments, the four regions each with its pipeline's proof data; region 3
  carries its accumulator from grid point to grid point in its invariant. For the reference it is the run of its host
  operations with the result dropped.
-/
import proofs.«153701_j33655363732257_1_alg».proof.Defs
import proofs.«153701_j33655363732257_1_alg».proof.Proof.Gen.Kernel
import proofs.«153701_j33655363732257_1_alg».proof.Proof.Gen.KernelIdeal
import proofs.«153701_j33655363732257_1_alg».proof.Proof.Gen.ReferenceIdeal
import proofs.«153701_j33655363732257_1_alg».proof.Proof.Gen.Pre_finite_inputs
import proofs.«153701_j33655363732257_1_alg».proof.Proof.RefRun
import proofs.«153701_j33655363732257_1_alg».proof.Proof.K.Run
import proofs.«153701_j33655363732257_1_alg».proof.Proof.KI.Run
import proofs.«153701_j33655363732257_1_alg».proof.Proof.KI.Value
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments unchanged. -/
theorem frame_k : Cert.frame_Kernel := fun m ρ _ =>
  (θ_run Cert.Kernel.defs _ _).mono (fun _ h c => (h c).2) (Cert.Kernel.Hand.run (F := Bits) m ρ)

/-- So does the idealized kernel program. -/
theorem frame_ki : Cert.frame_KernelIdeal := fun m ρ _ =>
  (θ_run Cert.KernelIdeal.defs _ _).mono (fun _ h c => (h c).2) (Cert.KernelIdeal.Hand.run (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the ideal pass: the reciprocal the kernel multiplies the column sums by is named, and the
    certificate's table gives the name the value 1/100000. -/
theorem preserves : Cert.preserves_Kernel_KernelIdeal :=
  IdealRules.named_const.statement Cert.KernelIdeal.κ "inv_100000" .f32 0x3727C5AC#32 ((1 / 100000 : ℝ) : EReal) rfl

/-- From memories that agree on the arguments both idealized programs run to the end, and the reference's result — its
    composed term of the arguments — is what the kernel program's last valuation holds in the result buffer: the same
    products, the same aggregations, and the mean-plus-bias in either order. -/
theorem algebraic : Cert.algebraic_KernelIdeal_ReferenceIdeal := by
  intro m ρ m' ρ' _ hagree
  refine ⟨fun c => Cert.KernelIdeal.Gen.V10 m (Cert.KernelIdeal.Hand.outs m) c Cert.KernelIdeal.main_v61,
    Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.Spec.res_eq, (hagree c).1, (hagree c).2.1, (hagree c).2.2.1, (hagree c).2.2.2.1, (hagree c).2.2.2.2.1,
    (hagree c).2.2.2.2.2]
  exact (Cert.KernelIdeal.Hand.value_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
